-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S128x128 : Shape := ⟨2, ![128, 128]⟩
abbrev S128 : Shape := ⟨1, ![128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16x2048x128 .f32) (main_arg1 : FVec F S16x2048x2048 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S16x2048x128 : Shape := ⟨3, ![16, 2048, 128]⟩
abbrev S16x2048x2048 : Shape := ⟨3, ![16, 2048, 2048]⟩
abbrev S128x128 : Shape := ⟨2, ![128, 128]⟩
abbrev S128 : Shape := ⟨1, ![128]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x2048 : Shape := ⟨2, ![1024, 2048]⟩
abbrev S2048x128 : Shape := ⟨2, ![2048, 128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩

abbrev nBuf : Space → Nat
  | .hbm => 18
  | .vmem => 32
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S16x2048x128, .f32⟩
  | .hbm, ⟨15, _⟩ => ⟨S16x2048x2048, .bf16⟩
  | .hbm, ⟨16, _⟩ => ⟨S16x2048x128, .f32⟩
  | .hbm, ⟨17, _⟩ => ⟨S16x2048x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x128, .f32⟩
  | .local _ .vmem, ⟨3, _⟩ => ⟨S1x2048x128, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S1x2048x128, .f32⟩
  | .local _ .vmem, ⟨15, _⟩ => ⟨S1x2048x128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S1x1024x128, .f32⟩
  | .local _ .vmem, ⟨21, _⟩ => ⟨S1x1024x128, .f32⟩
  | .local _ .vmem, ⟨22, _⟩ => ⟨S1x1024x2048, .bf16⟩
  | .local _ .vmem, ⟨23, _⟩ => ⟨S1x1024x2048, .bf16⟩
  | .local _ .vmem, ⟨24, _⟩ => ⟨S1x2048x128, .f32⟩
  | .local _ .vmem, ⟨25, _⟩ => ⟨S1x2048x128, .f32⟩
  | .local _ .vmem, ⟨26, _⟩ => ⟨S128x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S1x1024x128, .f32⟩
  | .local _ .vmem, ⟨31, _⟩ => ⟨S1x1024x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![16, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  shapeCasts_S1024x2048_S1x1024x2048 : S1024x2048.ShapeCasts S1x1024x2048
  packedbf16_S1x1024x2048_S1x1024x2048_0_0_0 : (Rect.unit (s := S1x1024x2048) ![0, 0, 0] S1x1024x2048.size inb_S1x1024x2048_S1x1024x2048_0_0_0).PackedRows (EltTy.packing .bf16)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x2048x2048.size a
  hwx0_0 : ∀ i : grid0.Coords, EltTy.bits .f32 = 32 ∨ (Rect.block (s := S16x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S16x2048x128.size a
  hwx0_6 : ∀ i : grid0.Coords, EltTy.bits .f32 = 32 ∨ (Rect.block (s := S16x2048x128) S1x1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x2048.size a ≤ S16x2048x2048.size a
  hwx0_7 : ∀ i : grid0.Coords, EltTy.bits .bf16 = 32 ∨ (Rect.block (s := S16x2048x2048) S1x1024x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S16x2048x2048.size a
  hwx1_0 : ∀ i : grid1.Coords, EltTy.bits .bf16 = 32 ∨ (Rect.block (s := S16x2048x2048) S1x1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S16x2048x128.size a
  hwx1_1 : ∀ i : grid1.Coords, EltTy.bits .f32 = 32 ∨ (Rect.block (s := S16x2048x128) S1x2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x128.size a ≤ S16x2048x128.size a
  hwx1_6 : ∀ i : grid1.Coords, EltTy.bits .f32 = 32 ∨ (Rect.block (s := S16x2048x128) S1x1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x2048.size a ≤ S16x2048x2048.size a
  hwx2_0 : ∀ i : grid2.Coords, EltTy.bits .bf16 = 32 ∨ (Rect.block (s := S16x2048x2048) S1x1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S16x2048x128.size a
  hwx2_1 : ∀ i : grid2.Coords, EltTy.bits .f32 = 32 ∨ (Rect.block (s := S16x2048x128) S1x2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x128.size a ≤ S16x2048x128.size a
  hwx2_6 : ∀ i : grid2.Coords, EltTy.bits .f32 = 32 ∨ (Rect.block (s := S16x2048x128) S1x1024x128.size (cc2_transform_6 i) (hinb2_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v0_1) S1x1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S1x1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S16x2048x128, .f32⟩
  | .hbm, ⟨15, _⟩ => ⟨S16x2048x128, .f32⟩
  | .hbm, ⟨16, _⟩ => ⟨S1x1x128, .f32⟩
  | .hbm, ⟨17, _⟩ => ⟨S16x2048x128, .f32⟩
  | .hbm, ⟨18, _⟩ => ⟨S16x2048x128, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x128, .f32⟩
  | .hbm, ⟨26, _⟩ => ⟨S16x2048x128, .f32⟩
  | .hbm, ⟨27, _⟩ => ⟨S16x2048x128, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x128, .f32⟩
  | .hbm, ⟨35, _⟩ => ⟨S16x2048x128, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x128, .f32⟩
  | .hbm, ⟨41, _⟩ => ⟨S16x2048x128, .f32⟩
  | .hbm, ⟨42, _⟩ => ⟨S1x1x128, .f32⟩
  | .hbm, ⟨43, _⟩ => ⟨S16x2048x128, .f32⟩
  | .hbm, ⟨44, _⟩ => ⟨S16x2048x128, .f32⟩
  | .hbm, ⟨45, _⟩ => ⟨S1x1x128, .f32⟩
  | .hbm, ⟨46, _⟩ => ⟨S16x2048x128, .f32⟩
  | .hbm, ⟨47, _⟩ => ⟨S16x2048x128, .f32⟩
  | .hbm, ⟨48, _⟩ => ⟨S_, .f32⟩
  | .hbm, ⟨49, _⟩ => ⟨S16x2048x128, .f32⟩
  | .hbm, ⟨50, _⟩ => ⟨S16x2048x128, .f32⟩
  | .hbm, ⟨51, _⟩ => ⟨S16x2048x128, .f32⟩
  | .hbm, ⟨52, _⟩ => ⟨S16x2048x128, .f32⟩
  | .hbm, ⟨53, _⟩ => ⟨S1x1x128, .f32⟩
  | .hbm, ⟨54, _⟩ => ⟨S16x2048x128, .f32⟩
  | .hbm, ⟨55, _⟩ => ⟨S16x2048x128, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x128, .f32⟩
  | .hbm, ⟨63, _⟩ => ⟨S16x2048x128, .f32⟩
  | .hbm, ⟨64, _⟩ => ⟨S16x2048x128, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S16x2048x128, .f32⟩
  | .hbm, ⟨72, _⟩ => ⟨S16x2048x128, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x128, .f32⟩
  | .hbm, ⟨78, _⟩ => ⟨S16x2048x128, .f32⟩
  | .hbm, ⟨79, _⟩ => ⟨S1x1x128, .f32⟩
  | .hbm, ⟨80, _⟩ => ⟨S16x2048x128, .f32⟩
  | .hbm, ⟨81, _⟩ => ⟨S16x2048x128, .f32⟩
  | .hbm, ⟨82, _⟩ => ⟨S1x1x128, .f32⟩
  | .hbm, ⟨83, _⟩ => ⟨S16x2048x128, .f32⟩
  | .hbm, ⟨84, _⟩ => ⟨S16x2048x128, .f32⟩
  | .hbm, ⟨85, _⟩ => ⟨S_, .f32⟩
  | .hbm, ⟨86, _⟩ => ⟨S16x2048x128, .f32⟩
  | .hbm, ⟨87, _⟩ => ⟨S16x2048x128, .f32⟩
  | .hbm, ⟨88, _⟩ => ⟨S16x2048x128, .f32⟩
  | .hbm, ⟨89, _⟩ => ⟨S16x2048x128, .f32⟩
  | .hbm, ⟨90, _⟩ => ⟨S1x1x128, .f32⟩
  | .hbm, ⟨91, _⟩ => ⟨S16x2048x128, .f32⟩
  | .hbm, ⟨92, _⟩ => ⟨S16x2048x128, .f32⟩
  | .hbm, ⟨93, _⟩ => ⟨S_, .f32⟩
  | .hbm, ⟨94, _⟩ => ⟨S16x2048, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S16x2048x128, .f32⟩
  | .hbm, ⟨100, _⟩ => ⟨S16x2048x128, .f32⟩
  | .hbm, ⟨101, _⟩ => ⟨S16x2048x128, .f32⟩
  | .hbm, ⟨102, _⟩ => ⟨S_, .f32⟩
  | .hbm, ⟨103, _⟩ => ⟨S16x2048, .f32⟩
  | .hbm, ⟨104, _⟩ => ⟨S16x2048x1, .f32⟩
  | .hbm, ⟨105, _⟩ => ⟨S_, .f32⟩
  | .hbm, ⟨106, _⟩ => ⟨S16x2048x1, .f32⟩
  | .hbm, ⟨107, _⟩ => ⟨S16x2048x1, .f32⟩
  | .hbm, ⟨108, _⟩ => ⟨S16x2048x128, .f32⟩
  | .hbm, ⟨109, _⟩ => ⟨S16x2048x128, .f32⟩
  | .hbm, ⟨110, _⟩ => ⟨S_, .f32⟩
  | .hbm, ⟨111, _⟩ => ⟨S16x2048x1, .f32⟩
  | .hbm, ⟨112, _⟩ => ⟨S16x2048x1, .f32⟩
  | .hbm, ⟨113, _⟩ => ⟨S16x2048x1, .f32⟩
  | .hbm, ⟨114, _⟩ => ⟨S16x2048x128, .f32⟩
  | .hbm, ⟨115, _⟩ => ⟨S16x2048x128, .f32⟩
  | .hbm, ⟨116, _⟩ => ⟨S1x1x128, .f32⟩
  | .hbm, ⟨117, _⟩ => ⟨S16x2048x128, .f32⟩
  | .hbm, ⟨118, _⟩ => ⟨S16x2048x128, .f32⟩
  | .hbm, ⟨119, _⟩ => ⟨S1x1x128, .f32⟩
  | .hbm, ⟨120, _⟩ => ⟨S16x2048x128, .f32⟩
  | .hbm, ⟨121, _⟩ => ⟨S16x2048x128, .f32⟩
  | .hbm, ⟨122, _⟩ => ⟨S_, .f32⟩
  | .hbm, ⟨123, _⟩ => ⟨S16x2048x128, .f32⟩
  | .hbm, ⟨124, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call2_cst : Ref sig .tc := ⟨.hbm, 122, rfl⟩
abbrev main_call2_v0 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  reducesTo_S16x2048x128_S16x2048_d2 : S16x2048x128.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x128_0_1_2 : S16x2048x1.BroadcastsInDim S16x2048x128 (![0, 1, 2] : Fin 3 → Fin S16x2048x128.rank)
  bcast_S_S16x2048x128 : S_.BroadcastsInDim S16x2048x128 (![] : Fin 0 → Fin S16x2048x128.rank)
  dot_S16x2048x2048_S16x2048x128_S16x2048x128_2_1_1_2_0_0_wf : DotDims.WF S16x2048x2048 S16x2048x128 S16x2048x128 [2] [1] [1] [2] [0] [0]
  dot_S16x2048x128_S128x128_S16x2048x128_2_0_01_1_n_n_wf : DotDims.WF S16x2048x128 S128x128 S16x2048x128 [2] [0] [0, 1] [1] [] []

variable [Facts₀]

def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf
def dot_S16x2048x128_S128x128_S16x2048x128_2_0_01_1_n_n : DotDims S16x2048x128 S128x128 S16x2048x128 where
  lhsContracting := [2]
  rhsContracting := [0]
  lhsNonContracting := [0, 1]
  rhsNonContracting := [1]
  lhsBatch := []
  rhsBatch := []
  wf := dot_S16x2048x128_S128x128_S16x2048x128_2_0_01_1_n_n_wf

class Facts : Prop extends Facts₀ where

variable [Facts]
-- ==== Proof.KernelRun.lean ====
/-
  The kernel program's run with its result named.

  The program is three launches in a row.  Every weakly fair execution from a memory with zero counters terminates
  without a fault, leaves the fourteen argument arrays as they were, and leaves in the result array what the third
  launch's write-backs fold to: the last boundary's contents at that array.  The launch, the three regions as segments
  and the boundary contents are the ones the frame is stated over; only the final read-out also reads the result
  array.
-/
import proofs.«158423_j87634512708198_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting; the result array ends at the last boundary's contents
    and the arguments end as launched. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.RunResult

end
-- ==== Proof.GraphLayer.lean ====
/-
  One graph-convolution layer on the extended reals, as one function of its arrays.

  For a batch of 16 graphs of 2048 nodes with 128 features, adjacency `A`, features `H`, weights `W` and the three
  vectors `b`, `γ`, `β`, the layer sends node `n` of graph `p` to

      relu ( (lin − μ) · rsqrt (σ² + ε) · γ + β ),   lin j = (∑ k, (∑ m, A p n m · H p m k) · W k j) + b j,

  where `μ` is the mean of `lin` over the 128 features (their sum divided by 128) and `σ²` the mean of the squared
  deviations `(lin j − μ)²`.  `node` is that formula for one node, given its row of the adjacency and the graph's
  feature matrix; `layer` reads it at every index of the `[16, 2048, 128]` result.
-/
import Idealize.ShloMosaic.PureOps.Ideal
import Idealize.ShloMosaic.Lib.ValueIdx

noncomputable section

open scoped BigOperators

namespace Cert.GraphLayer

open Idealize.ShloMosaic Idealize.ShloMosaic.ValueIdx

/-- The pre-normalisation row of one node: its aggregated neighbours' features through the weights, plus the bias. -/
def lin (arow : Fin 2048 → EReal) (hb : Fin 2048 → Fin 128 → EReal) (W : Fin 128 → Fin 128 → EReal)
    (b : Fin 128 → EReal) (j : Fin 128) : EReal :=
  (∑ k : Fin 128, (∑ m : Fin 2048, arow m * hb m k) * W k j) + b j

/-- The mean of a row of 128 entries: their sum divided by the float 128. -/
def mean (v : Fin 128 → EReal) : EReal := Ideal.div (∑ j : Fin 128, v j) (Ideal.ofBits .f32 0x43000000#32)

/-- The layer's value at one node and one feature `d`: the row normalised by its mean and variance (with the float
    `ε = 1e-5` under the reciprocal square root), scaled, shifted and clamped below at zero. -/
def node (arow : Fin 2048 → EReal) (hb : Fin 2048 → Fin 128 → EReal) (W : Fin 128 → Fin 128 → EReal)
    (b g be : Fin 128 → EReal) (d : Fin 128) : EReal :=
  max
    ((lin arow hb W b d - mean (lin arow hb W b))
        * Ideal.rsqrt (mean (fun j => (lin arow hb W b j - mean (lin arow hb W b)) * (lin arow hb W b j - mean (lin arow hb W b)))
            + Ideal.ofBits .f32 0x3727C5AC#32)
        * g d + be d)
    (Ideal.ofBits .f32 0x00000000#32)

/-- The layer on whole arrays: entry `(p, n, d)` is `node` of row `(p, n)` of the adjacency and graph `p`'s features. -/
def layer (A : (⟨3, ![16, 2048, 2048]⟩ : Shape).Idx → EReal) (H : (⟨3, ![16, 2048, 128]⟩ : Shape).Idx → EReal)
    (W : (⟨2, ![128, 128]⟩ : Shape).Idx → EReal) (b g be : (⟨1, ![128]⟩ : Shape).Idx → EReal) :
    (⟨3, ![16, 2048, 128]⟩ : Shape).Idx → EReal :=
  fun i => node (fun m => A (ix3 (i 0) (i 1) m)) (fun m k => H (ix3 (i 0) m k)) (fun k j => W (ix2 k j))
    (fun j => b (ix1 j)) (fun j => g (ix1 j)) (fun j => be (ix1 j)) (i 2)

/-- `layer` at an index given by its coordinates. -/
theorem layer_ix3 (A : (⟨3, ![16, 2048, 2048]⟩ : Shape).Idx → EReal) (H : (⟨3, ![16, 2048, 128]⟩ : Shape).Idx → EReal)
    (W : (⟨2, ![128, 128]⟩ : Shape).Idx → EReal) (b g be : (⟨1, ![128]⟩ : Shape).Idx → EReal)
    (p : Fin 16) (n : Fin 2048) (d : Fin 128) :
    layer A H W b g be (ix3 p n d)
      = node (fun m => A (ix3 p n m)) (fun m k => H (ix3 p m k)) (fun k j => W (ix2 k j))
          (fun j => b (ix1 j)) (fun j => g (ix1 j)) (fun j => be (ix1 j)) d := rfl

end Cert.GraphLayer

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.BlockOps.lean ====
/-
  The arithmetic of one row tile of a graph-convolution layer, read at an index.

  A tile is 1024 nodes of one graph: their rows of the adjacency (a `[1024, 2048]` matrix), the graph's features
  (`[1, 2048, 128]`), the weights and the three vectors.  The tile's result is built from matrix products, row sums,
  unit-axis casts and row / column broadcasts; each step is read here at an index, and the whole tile's entry
  `(r, d)` is `GraphLayer.node` of row `r` of the adjacency tile.
-/
import Idealize.ShloMosaic.Lib.Pipeline.Value
import Idealize.ShloMosaic.Lib.ValueIdx
import Idealize.ShloMosaic.Lib.ValueLayout
import Idealize.ShloMosaic.PureOps.Ideal.Laws
import proofs.«158423_j87634512708198_2_alg».proof.Proof.GraphLayer
import proofs.«158423_j87634512708198_2_alg».proof.Proof.LibRowOps
import proofs.«158423_j87634512708198_2_alg».proof.Proof.LibColumn
import proofs.«158423_j87634512708198_2_alg».proof.Proof.LibUnitColumn

noncomputable section

open scoped BigOperators

namespace Cert.BlockOps

open Idealize.ShloMosaic Idealize.ShloMosaic.ValueIdx Cert.GraphLayer

/-- The shape facts the tile's operations cite. -/
structure Side : Prop where
  scH : (⟨3, ![1, 2048, 128]⟩ : Shape).ShapeCasts ⟨2, ![2048, 128]⟩
  scV : (⟨1, ![128]⟩ : Shape).ShapeCasts ⟨2, ![1, 128]⟩
  bcRow : (⟨2, ![1, 128]⟩ : Shape).Broadcasts ⟨2, ![1024, 128]⟩
  red : (⟨2, ![1024, 128]⟩ : Shape).Reduces [(1 : Fin 2)] ⟨1, ![1024]⟩
  scCol : (⟨1, ![1024]⟩ : Shape).ShapeCasts ⟨2, ![1024, 1]⟩
  bcCol : (⟨2, ![1024, 1]⟩ : Shape).Broadcasts ⟨2, ![1024, 128]⟩
  scO : (⟨2, ![1024, 128]⟩ : Shape).ShapeCasts ⟨3, ![1, 1024, 128]⟩
  lt : FTy.bits .bf16 < FTy.bits .f32

variable (S : Side) (hφ : FKind.Formats .f32) (hacc : (0x00000000#32 : BitVec 32) = FKind.add.neutral .f32 hφ)

/-! ## The mean of each row, as a column -/

/-- Each row's sum divided by the float 128, kept as a `[1024, 1]` column. -/
def meanCol (v : FVec Ideal ⟨2, ![1024, 128]⟩ .f32) : FVec Ideal ⟨2, ![1024, 1]⟩ .f32 :=
  divf (shapeCast ⟨2, ![1024, 1]⟩ (multiReduction .add [(1 : Fin 2)] ⟨1, ![1024]⟩ v 0x00000000#32 S.red hφ hacc) S.scCol)
    (broadcast ⟨2, ![1024, 1]⟩ (Scalar.ofBits .f32 0x43000000#32))

/-- The column's entry of row `r` is the mean of that row. -/
theorem meanCol_apply (v : FVec Ideal ⟨2, ![1024, 128]⟩ .f32) (r : Fin 1024) (u : Fin 1) :
    meanCol S hφ hacc v (ix2 r u) = mean (fun j => v (ix2 r j)) := by
  unfold meanCol mean
  show Ideal.div (shapeCast ⟨2, ![1024, 1]⟩ (multiReduction .add [(1 : Fin 2)] ⟨1, ![1024]⟩ v 0x00000000#32 S.red hφ hacc) S.scCol (ix2 r u))
      (Ideal.ofBits .f32 0x43000000#32) = _
  rw [LibUnitColumn.shapeCast_a_a1_apply, LibRowOps.rowSum_apply]

/-! ## Normalising each row -/

/-- Each row less its mean, times the reciprocal square root of its variance plus the float `ε`. -/
def normed (v : FVec Ideal ⟨2, ![1024, 128]⟩ .f32) : FVec Ideal ⟨2, ![1024, 128]⟩ .f32 :=
  mulf (subf v (broadcastTo ⟨2, ![1024, 128]⟩ (meanCol S hφ hacc v) S.bcCol))
    (broadcastTo ⟨2, ![1024, 128]⟩
      (rsqrt (addf
        (meanCol S hφ hacc
          (mulf (subf v (broadcastTo ⟨2, ![1024, 128]⟩ (meanCol S hφ hacc v) S.bcCol))
            (subf v (broadcastTo ⟨2, ![1024, 128]⟩ (meanCol S hφ hacc v) S.bcCol))))
        (broadcast ⟨2, ![1024, 1]⟩ (Scalar.ofBits .f32 0x3727C5AC#32))))
      S.bcCol)

theorem normed_apply (v : FVec Ideal ⟨2, ![1024, 128]⟩ .f32) (r : Fin 1024) (d : Fin 128) :
    normed S hφ hacc v (ix2 r d)
      = (v (ix2 r d) - mean (fun j => v (ix2 r j)))
          * Ideal.rsqrt (mean (fun j => (v (ix2 r j) - mean (fun j => v (ix2 r j))) * (v (ix2 r j) - mean (fun j => v (ix2 r j))))
              + Ideal.ofBits .f32 0x3727C5AC#32) := by
  unfold normed
  show (v (ix2 r d) - broadcastTo ⟨2, ![1024, 128]⟩ (meanCol S hφ hacc v) S.bcCol (ix2 r d))
      * broadcastTo ⟨2, ![1024, 128]⟩ _ S.bcCol (ix2 r d) = _
  rw [LibColumn.broadcastTo_a1_ab_apply, LibColumn.broadcastTo_a1_ab_apply, meanCol_apply]
  show _ * Ideal.rsqrt (meanCol S hφ hacc _ (ix2 r (0 : Fin 1)) + Ideal.ofBits .f32 0x3727C5AC#32) = _
  rw [meanCol_apply]
  have hsq : (fun j : Fin 128 => (mulf (subf v (broadcastTo ⟨2, ![1024, 128]⟩ (meanCol S hφ hacc v) S.bcCol))
            (subf v (broadcastTo ⟨2, ![1024, 128]⟩ (meanCol S hφ hacc v) S.bcCol))) (ix2 r j))
      = fun j => (v (ix2 r j) - mean (fun j => v (ix2 r j))) * (v (ix2 r j) - mean (fun j => v (ix2 r j))) := by
    funext j
    show (v (ix2 r j) - broadcastTo ⟨2, ![1024, 128]⟩ (meanCol S hφ hacc v) S.bcCol (ix2 r j))
        * (v (ix2 r j) - broadcastTo ⟨2, ![1024, 128]⟩ (meanCol S hφ hacc v) S.bcCol (ix2 r j)) = _
    rw [LibColumn.broadcastTo_a1_ab_apply, meanCol_apply]
  rw [hsq]

/-! ## Scale and shift by two vectors, then clamp below at zero -/

/-- A `[1024, 128]` block times a vector along its rows, plus another vector along its rows. -/
def affine (v : FVec Ideal ⟨2, ![1024, 128]⟩ .f32) (g be : Vec Ideal ⟨1, ![128]⟩ .f32) : FVec Ideal ⟨2, ![1024, 128]⟩ .f32 :=
  addf (mulf v (broadcastTo ⟨2, ![1024, 128]⟩ (shapeCast ⟨2, ![1, 128]⟩ g S.scV) S.bcRow))
    (broadcastTo ⟨2, ![1024, 128]⟩ (shapeCast ⟨2, ![1, 128]⟩ be S.scV) S.bcRow)

theorem affine_apply (v : FVec Ideal ⟨2, ![1024, 128]⟩ .f32) (g be : Vec Ideal ⟨1, ![128]⟩ .f32) (r : Fin 1024) (d : Fin 128) :
    affine S v g be (ix2 r d) = v (ix2 r d) * g (ix1 d) + be (ix1 d) := by
  unfold affine
  show v (ix2 r d) * broadcastTo ⟨2, ![1024, 128]⟩ (shapeCast ⟨2, ![1, 128]⟩ g S.scV) S.bcRow (ix2 r d)
      + broadcastTo ⟨2, ![1024, 128]⟩ (shapeCast ⟨2, ![1, 128]⟩ be S.scV) S.bcRow (ix2 r d) = _
  rw [broadcastTo_1b_ab_apply, broadcastTo_1b_ab_apply, shapeCast_a_1a_apply, shapeCast_a_1a_apply]

/-- The block clamped below at zero, with a leading unit axis. -/
def relu3 (v : FVec Ideal ⟨2, ![1024, 128]⟩ .f32) : FVec Ideal ⟨3, ![1, 1024, 128]⟩ .f32 :=
  shapeCast ⟨3, ![1, 1024, 128]⟩ (maximumf v (broadcast ⟨2, ![1024, 128]⟩ (Scalar.ofBits .f32 0x00000000#32))) S.scO

theorem relu3_apply (v : FVec Ideal ⟨2, ![1024, 128]⟩ .f32) (u : Fin 1) (r : Fin 1024) (d : Fin 128) :
    relu3 S v (ix3 u r d) = max (v (ix2 r d)) (Ideal.ofBits .f32 0x00000000#32) := by
  unfold relu3
  rw [shapeCast_ab_1ab_apply]
  rfl

/-! ## The linear part: neighbours aggregated, through the weights, plus the bias -/

/-- `(A · H) · W + b` on a tile: `A` the tile's rows of the adjacency, `H` the graph's features with their unit axis. -/
def linBlock (d1 : DotDims ⟨2, ![1024, 2048]⟩ ⟨2, ![2048, 128]⟩ ⟨2, ![1024, 128]⟩)
    (d2 : DotDims ⟨2, ![1024, 128]⟩ ⟨2, ![128, 128]⟩ ⟨2, ![1024, 128]⟩)
    (a : FVec Ideal ⟨2, ![1024, 2048]⟩ .bf16) (h : Vec Ideal ⟨3, ![1, 2048, 128]⟩ .f32) (w : Vec Ideal ⟨2, ![128, 128]⟩ .f32)
    (b : Vec Ideal ⟨1, ![128]⟩ .f32) : FVec Ideal ⟨2, ![1024, 128]⟩ .f32 :=
  addf
    (matmul d2 none
      (truncf .bf16 (matmul d1 none a (truncf .bf16 (shapeCast ⟨2, ![2048, 128]⟩ h S.scH) S.lt) (constant ⟨2, ![1024, 128]⟩ .f32 0x00000000#32)) S.lt)
      (truncf .bf16 w S.lt) (constant ⟨2, ![1024, 128]⟩ .f32 0x00000000#32))
    (broadcastTo ⟨2, ![1024, 128]⟩ (shapeCast ⟨2, ![1, 128]⟩ b S.scV) S.bcRow)

/-- The coordinate facts of a two-matrix product's dimension numbers: rows from the left, columns from the right, one
    contracted axis of the stated length. -/
structure MatDims {m k n : ℕ} (d : DotDims ⟨2, ![m, k]⟩ ⟨2, ![k, n]⟩ ⟨2, ![m, n]⟩) : Prop where
  hr : d.contr.rank = 1
  hs : d.contr.size ⟨0, by omega⟩ = k
  hl0 : ∀ (j : (⟨2, ![m, n]⟩ : Shape).Idx) (q : d.contr.Idx), (d.lhsIdx j q 0).val = (j 0).val
  hl1 : ∀ (j : (⟨2, ![m, n]⟩ : Shape).Idx) (q : d.contr.Idx), (d.lhsIdx j q 1).val = (q ⟨0, by omega⟩).val
  hr0 : ∀ (j : (⟨2, ![m, n]⟩ : Shape).Idx) (q : d.contr.Idx), (d.rhsIdx j q 0).val = (q ⟨0, by omega⟩).val
  hr1 : ∀ (j : (⟨2, ![m, n]⟩ : Shape).Idx) (q : d.contr.Idx), (d.rhsIdx j q 1).val = (j 1).val

theorem linBlock_apply (d1 : DotDims ⟨2, ![1024, 2048]⟩ ⟨2, ![2048, 128]⟩ ⟨2, ![1024, 128]⟩)
    (d2 : DotDims ⟨2, ![1024, 128]⟩ ⟨2, ![128, 128]⟩ ⟨2, ![1024, 128]⟩) (D1 : MatDims d1) (D2 : MatDims d2)
    (a : FVec Ideal ⟨2, ![1024, 2048]⟩ .bf16) (h : Vec Ideal ⟨3, ![1, 2048, 128]⟩ .f32) (w : Vec Ideal ⟨2, ![128, 128]⟩ .f32)
    (b : Vec Ideal ⟨1, ![128]⟩ .f32) (r : Fin 1024) (j : Fin 128) :
    linBlock S d1 d2 a h w b (ix2 r j)
      = lin (fun m => a (ix2 r m)) (fun m k => h (ix3 (0 : Fin 1) m k)) (fun k j => w (ix2 k j)) (fun j => b (ix1 j)) j := by
  unfold linBlock lin
  show FloatOps.matmul (F := Ideal) d2 none _ _ (constant (F := Ideal) ⟨2, ![1024, 128]⟩ .f32 0x00000000#32) (ix2 r j)
      + broadcastTo ⟨2, ![1024, 128]⟩ (shapeCast ⟨2, ![1, 128]⟩ b S.scV) S.bcRow (ix2 r j) = _
  rw [LibRowOps.matmul_zero_apply d2 none _ _ D2.hr D2.hs D2.hl0 D2.hl1 D2.hr0 D2.hr1, broadcastTo_1b_ab_apply, shapeCast_a_1a_apply]
  congr 1
  refine Finset.sum_congr rfl fun k _ => ?_
  show FloatOps.matmul (F := Ideal) d1 none a _ (constant (F := Ideal) ⟨2, ![1024, 128]⟩ .f32 0x00000000#32) (ix2 r k) * w (ix2 k j) = _
  rw [LibRowOps.matmul_zero_apply d1 none _ _ D1.hr D1.hs D1.hl0 D1.hl1 D1.hr0 D1.hr1]
  congr 1
  refine Finset.sum_congr rfl fun m _ => ?_
  show a (ix2 r m) * shapeCast ⟨2, ![2048, 128]⟩ h S.scH (ix2 m k) = _
  rw [shapeCast_1ab_ab_apply]

/-! ## The whole tile -/

/-- The tile's result: linear part, normalised rows, scale and shift, clamp. -/
def tile (d1 : DotDims ⟨2, ![1024, 2048]⟩ ⟨2, ![2048, 128]⟩ ⟨2, ![1024, 128]⟩)
    (d2 : DotDims ⟨2, ![1024, 128]⟩ ⟨2, ![128, 128]⟩ ⟨2, ![1024, 128]⟩)
    (a : FVec Ideal ⟨2, ![1024, 2048]⟩ .bf16) (h : Vec Ideal ⟨3, ![1, 2048, 128]⟩ .f32) (w : Vec Ideal ⟨2, ![128, 128]⟩ .f32)
    (b g be : Vec Ideal ⟨1, ![128]⟩ .f32) : FVec Ideal ⟨3, ![1, 1024, 128]⟩ .f32 :=
  relu3 S (affine S (normed S hφ hacc (linBlock S d1 d2 a h w b)) g be)

/-- Entry `(r, d)` of the tile is the layer's value at the node whose adjacency row is row `r` of the tile. -/
theorem tile_apply (d1 : DotDims ⟨2, ![1024, 2048]⟩ ⟨2, ![2048, 128]⟩ ⟨2, ![1024, 128]⟩)
    (d2 : DotDims ⟨2, ![1024, 128]⟩ ⟨2, ![128, 128]⟩ ⟨2, ![1024, 128]⟩) (D1 : MatDims d1) (D2 : MatDims d2)
    (a : FVec Ideal ⟨2, ![1024, 2048]⟩ .bf16) (h : Vec Ideal ⟨3, ![1, 2048, 128]⟩ .f32) (w : Vec Ideal ⟨2, ![128, 128]⟩ .f32)
    (b g be : Vec Ideal ⟨1, ![128]⟩ .f32) (u : Fin 1) (r : Fin 1024) (d : Fin 128) :
    tile S hφ hacc d1 d2 a h w b g be (ix3 u r d)
      = node (fun m => a (ix2 r m)) (fun m k => h (ix3 (0 : Fin 1) m k)) (fun k j => w (ix2 k j))
          (fun j => b (ix1 j)) (fun j => g (ix1 j)) (fun j => be (ix1 j)) d := by
  unfold tile node
  rw [relu3_apply, affine_apply, normed_apply]
  simp only [linBlock_apply S d1 d2 D1 D2]

end Cert.BlockOps

end
-- ==== Proof.TileValue.lean ====
/-
  What each launch's body leaves in its output tile, read at an index.

  In every one of the three launches the body's stored value is the tile arithmetic of `BlockOps.tile` applied to the
  blocks it loaded, so entry `(r, d)` of the stored tile is `GraphLayer.node` of row `r` of the adjacency block.  The
  first launch reads the adjacency in single precision and also stores a copy of its block for the later launches;
  a change of float format is the identity on the extended reals, so the copy holds the block itself.
-/
import proofs.«158423_j87634512708198_2_alg».proof.Proof.Gen.KernelIdeal.Frame
import proofs.«158423_j87634512708198_2_alg».proof.Proof.BlockOps

noncomputable section

namespace Cert.KernelIdeal.TileValue

open Cert.KernelIdeal Cert.KernelIdeal.Gen
open Idealize.ShloMosaic Idealize.ShloMosaic.ValueIdx Cert.GraphLayer Cert.BlockOps

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Single precision is a format sums are taken in, and the zero word is the neutral accumulator of a sum. -/
theorem hfmt : FKind.Formats .f32 := .inl rfl
theorem hzero : (0x00000000#32 : BitVec 32) = FKind.add.neutral .f32 hfmt := rfl

/-- The shape facts of the tile's operations, from the program's stated side conditions. -/
theorem side : Side :=
  ⟨Facts₀.shapeCasts_S1x2048x128_S2048x128, Facts₀.shapeCasts_S128_S1x128, Facts₀.broadcasts_S1x128_S1024x128, Facts₀.reduces_S1024x128_S1024,
    Facts₀.shapeCasts_S1024_S1024x1, Facts₀.broadcasts_S1024x1_S1024x128, Facts₀.shapeCasts_S1024x128_S1x1024x128, Facts₀.bitsLt_bf16_f32⟩

/-- The aggregation product contracts the adjacency's columns with the features' rows. -/
theorem dimsAgg : MatDims dot_S1024x2048_S2048x128_S1024x128_1_0_0_1_n_n where
  hr := rfl
  hs := rfl
  hl0 := fun j q => by
    unfold DotDims.lhsIdx
    rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
    rfl
  hl1 := fun j q => dot_S1024x2048_S2048x128_S1024x128_1_0_0_1_n_n.lhsIdx_val_of_single rfl j q
  hr0 := fun j q => dot_S1024x2048_S2048x128_S1024x128_1_0_0_1_n_n.rhsIdx_val_of_single rfl j q
  hr1 := fun j q => by
    unfold DotDims.rhsIdx
    rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
    rfl

/-- The projection product contracts the aggregated features with the weights' rows. -/
theorem dimsProj : MatDims dot_S1024x128_S128x128_S1024x128_1_0_0_1_n_n where
  hr := rfl
  hs := rfl
  hl0 := fun j q => by
    unfold DotDims.lhsIdx
    rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
    rfl
  hl1 := fun j q => dot_S1024x128_S128x128_S1024x128_1_0_0_1_n_n.lhsIdx_val_of_single rfl j q
  hr0 := fun j q => dot_S1024x128_S128x128_S1024x128_1_0_0_1_n_n.rhsIdx_val_of_single rfl j q
  hr1 := fun j q => by
    unfold DotDims.rhsIdx
    rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
    rfl

/-- A `[1, 1024, 2048]` block without its unit axis, read at `(r, m)`. -/
theorem dropUnit_apply {α : Type} (x : S1x1024x2048.Idx → α) (r : Fin 1024) (m : Fin 2048) :
    shapeCast S1024x2048 x Facts₀.shapeCasts_S1x1024x2048_S1024x2048 (ix2 r m) = x (ix3 (0 : Fin 1) r m) :=
  shapeCast_1ab_ab_apply x Facts₀.shapeCasts_S1x1024x2048_S1024x2048 r m

/-! ## The first launch -/

/-- The first launch's stored tile is the tile arithmetic of its loaded blocks. -/
theorem out0_6_eq (x0 : Vec Ideal S1x1024x2048 .f32) (x1 : Vec Ideal S1x2048x128 .f32) (x2 : Vec Ideal S128x128 .f32)
    (x3 x4 x5 : Vec Ideal S128 .f32) :
    out0_6 (F := Ideal) x0 x1 x2 x3 x4 x5
      = tile side hfmt hzero dot_S1024x2048_S2048x128_S1024x128_1_0_0_1_n_n dot_S1024x128_S128x128_S1024x128_1_0_0_1_n_n (k0_pay2 (F := Ideal) x0) x1 x2 x3 x4 x5 := by
  unfold out0_6
  rw [View.canon_unit_zero hz3]
  simp only [View.ld_unit_zero (S := S1x1024x2048) hz3, View.ld_unit_zero (S := S1x2048x128) hz3,
    View.ld_unit_zero (S := S128x128) hz2, View.ld_unit_zero (S := S128) hz1]
  rfl

theorem out0_6_apply (x0 : Vec Ideal S1x1024x2048 .f32) (x1 : Vec Ideal S1x2048x128 .f32) (x2 : Vec Ideal S128x128 .f32)
    (x3 x4 x5 : Vec Ideal S128 .f32) (u : Fin 1) (r : Fin 1024) (d : Fin 128) :
    out0_6 (F := Ideal) x0 x1 x2 x3 x4 x5 (ix3 u r d)
      = node (fun m => x0 (ix3 (0 : Fin 1) r m)) (fun m k => x1 (ix3 (0 : Fin 1) m k)) (fun k j => x2 (ix2 k j))
          (fun j => x3 (ix1 j)) (fun j => x4 (ix1 j)) (fun j => x5 (ix1 j)) d := by
  rw [out0_6_eq, tile_apply side hfmt hzero _ _ dimsAgg dimsProj]
  have ha : (fun m : Fin 2048 => k0_pay2 (F := Ideal) x0 (ix2 r m)) = fun m => x0 (ix3 (0 : Fin 1) r m) :=
    funext fun m => dropUnit_apply x0 r m
  rw [ha]

/-- The first launch's stored copy of the adjacency block is the block. -/
theorem out0_7_apply (x0 : Vec Ideal S1x1024x2048 .f32) (x1 : Vec Ideal S1x2048x128 .f32) (x2 : Vec Ideal S128x128 .f32)
    (x3 x4 x5 : Vec Ideal S128 .f32) (u : Fin 1) (r : Fin 1024) (k : Fin 2048) :
    out0_7 (F := Ideal) x0 x1 x2 x3 x4 x5 (ix3 u r k) = x0 (ix3 (0 : Fin 1) r k) := by
  unfold out0_7
  rw [View.canon_unit_zero hz3]
  simp only [View.ld_unit_zero (S := S1x1024x2048) hz3]
  unfold k0_pay3
  show shapeCast S1x1024x2048 (k0_pay2 (F := Ideal) x0) Facts₀.shapeCasts_S1024x2048_S1x1024x2048 (ix3 u r k) = _
  rw [shapeCast_ab_1ab_apply]
  exact dropUnit_apply x0 r k

/-! ## The second and third launches -/

theorem out1_6_eq (x0 : Vec Ideal S1x1024x2048 .bf16) (x1 : Vec Ideal S1x2048x128 .f32) (x2 : Vec Ideal S128x128 .f32)
    (x3 x4 x5 : Vec Ideal S128 .f32) :
    out1_6 (F := Ideal) x0 x1 x2 x3 x4 x5
      = tile side hfmt hzero dot_S1024x2048_S2048x128_S1024x128_1_0_0_1_n_n dot_S1024x128_S128x128_S1024x128_1_0_0_1_n_n (shapeCast S1024x2048 x0 Facts₀.shapeCasts_S1x1024x2048_S1024x2048) x1 x2 x3 x4 x5 := by
  unfold out1_6
  rw [View.canon_unit_zero hz3]
  simp only [View.ld_unit_zero (S := S1x1024x2048) hz3, View.ld_unit_zero (S := S1x2048x128) hz3,
    View.ld_unit_zero (S := S128x128) hz2, View.ld_unit_zero (S := S128) hz1]
  rfl

theorem out1_6_apply (x0 : Vec Ideal S1x1024x2048 .bf16) (x1 : Vec Ideal S1x2048x128 .f32) (x2 : Vec Ideal S128x128 .f32)
    (x3 x4 x5 : Vec Ideal S128 .f32) (u : Fin 1) (r : Fin 1024) (d : Fin 128) :
    out1_6 (F := Ideal) x0 x1 x2 x3 x4 x5 (ix3 u r d)
      = node (fun m => x0 (ix3 (0 : Fin 1) r m)) (fun m k => x1 (ix3 (0 : Fin 1) m k)) (fun k j => x2 (ix2 k j))
          (fun j => x3 (ix1 j)) (fun j => x4 (ix1 j)) (fun j => x5 (ix1 j)) d := by
  rw [out1_6_eq, tile_apply side hfmt hzero _ _ dimsAgg dimsProj]
  have ha : (fun m : Fin 2048 => shapeCast S1024x2048 x0 Facts₀.shapeCasts_S1x1024x2048_S1024x2048 (ix2 r m)) = fun m => x0 (ix3 (0 : Fin 1) r m) :=
    funext fun m => dropUnit_apply x0 r m
  rw [ha]

theorem out2_6_eq (x0 : Vec Ideal S1x1024x2048 .bf16) (x1 : Vec Ideal S1x2048x128 .f32) (x2 : Vec Ideal S128x128 .f32)
    (x3 x4 x5 : Vec Ideal S128 .f32) :
    out2_6 (F := Ideal) x0 x1 x2 x3 x4 x5
      = tile side hfmt hzero dot_S1024x2048_S2048x128_S1024x128_1_0_0_1_n_n dot_S1024x128_S128x128_S1024x128_1_0_0_1_n_n (shapeCast S1024x2048 x0 Facts₀.shapeCasts_S1x1024x2048_S1024x2048) x1 x2 x3 x4 x5 := by
  unfold out2_6
  rw [View.canon_unit_zero hz3]
  simp only [View.ld_unit_zero (S := S1x1024x2048) hz3, View.ld_unit_zero (S := S1x2048x128) hz3,
    View.ld_unit_zero (S := S128x128) hz2, View.ld_unit_zero (S := S128) hz1]
  rfl

theorem out2_6_apply (x0 : Vec Ideal S1x1024x2048 .bf16) (x1 : Vec Ideal S1x2048x128 .f32) (x2 : Vec Ideal S128x128 .f32)
    (x3 x4 x5 : Vec Ideal S128 .f32) (u : Fin 1) (r : Fin 1024) (d : Fin 128) :
    out2_6 (F := Ideal) x0 x1 x2 x3 x4 x5 (ix3 u r d)
      = node (fun m => x0 (ix3 (0 : Fin 1) r m)) (fun m k => x1 (ix3 (0 : Fin 1) m k)) (fun k j => x2 (ix2 k j))
          (fun j => x3 (ix1 j)) (fun j => x4 (ix1 j)) (fun j => x5 (ix1 j)) d := by
  rw [out2_6_eq, tile_apply side hfmt hzero _ _ dimsAgg dimsProj]
  have ha : (fun m : Fin 2048 => shapeCast S1024x2048 x0 Facts₀.shapeCasts_S1x1024x2048_S1024x2048 (ix2 r m)) = fun m => x0 (ix3 (0 : Fin 1) r m) :=
    funext fun m => dropUnit_apply x0 r m
  rw [ha]

end Cert.KernelIdeal.TileValue

end
-- ==== Proof.Launch0.lean ====
/-
  Launch 1 of 3: from the tiles its grid points write back to the whole result array.

  The grid is 16 graphs by 2 row tiles of 1024 nodes.  At point `(p, s)` the adjacency window is rows
  `1024·s … 1024·s + 1023` of graph `p`, the feature window all of graph `p`, the weights and the three vectors whole,
  and the result window the same rows of graph `p`.  So what the point writes back is the tile of
  `GraphLayer.layer` of the arrays as the launch finds them, the 32 tiles cover the result array, and the array ends
  holding that layer.  The second result, the stored copy of the adjacency, ends holding the adjacency.
-/
import proofs.«158423_j87634512708198_2_alg».proof.Proof.Gen.KernelIdeal.Frame
import proofs.«158423_j87634512708198_2_alg».proof.Proof.TileValue

set_option maxRecDepth 16384

noncomputable section

namespace Cert.KernelIdeal.Launch0

open Cert.KernelIdeal Cert.KernelIdeal.Gen Cert.KernelIdeal.TileValue
open Idealize.ShloMosaic Idealize.ShloMosaic.TcCoe Idealize.ShloMosaic.ValueIdx Idealize.SL.Sem Cert.GraphLayer
open Idealize.ShloMosaic.Pipeline (Dat Cfg Window)

variable (V : (c : Dev nD) → (b : Ref sig .tc) → Buf (Elt Ideal) ((c : Thread nD τ).loc b))

/-- The printed index maps, decided over the 32 grid points: which block of each array a point's windows are. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (2 : Fin 3) = 0 ∧ win0_6.index t (0 : Fin 3) ≤ 15 ∧ win0_6.index t (1 : Fin 3) ≤ 1
    ∧ win0_7.index t (0 : Fin 3) = win0_6.index t (0 : Fin 3) ∧ win0_7.index t (1 : Fin 3) = win0_6.index t (1 : Fin 3)
    ∧ win0_7.index t (2 : Fin 3) = 0 :=
  (by decide +kernel : ∀ t : Fin grid0.N, _)

/-- Every (graph, row tile) pair is some grid point's. -/
theorem idx_onto : ∀ (q0 : Fin 16) (q1 : Fin 2), ∃ t : Fin cfg0.N, win0_6.index t = ![q0.val, q1.val, 0] :=
  (by decide +kernel : ∀ (q0 : Fin 16) (q1 : Fin 2), ∃ t : Fin grid0.N, win0_6.index t = ![q0.val, q1.val, 0])

/-! ## The input blocks, read where the result tile's rows say -/

theorem readA (c : Dev nD) (t : Fin cfg0.N) (p : Fin 16) (n : Fin 2048) (r : Fin 1024) (m : Fin 2048)
    (hp : p.val = win0_6.index t (0 : Fin 3)) (hn : n.val = win0_6.index t (1 : Fin 3) * 1024 + r.val) :
    iblk0 V c 0 t (ix3 (0 : Fin 1) r m) = V c main_arg1 (ix3 p n m) := by
  obtain ⟨f0a, f0b, f0c, f1a, f1b, f1c, f2a, f2b, f3, f4, f5, f6c, f6a, f6b, f7a, f7b, f7c⟩ := idx_facts t
  show V c main_arg1 (((cfg0.win 0).blk t).view.emb (ix3 (0 : Fin 1) r m)) = V c main_arg1 (ix3 p n m)
  have e : ((cfg0.win 0).blk t).view.emb (ix3 (0 : Fin 1) r m) = ix3 p n m := by
    funext a; apply Fin.ext
    match a with
    | ⟨0, _⟩ => show win0_0.index t (0 : Fin 3) * 1 + 1 * 0 = p.val; omega
    | ⟨1, _⟩ => show win0_0.index t (1 : Fin 3) * 1024 + 1 * r.val = n.val; omega
    | ⟨2, _⟩ => show win0_0.index t (2 : Fin 3) * 2048 + 1 * m.val = m.val; omega
  rw [e]

theorem readH (c : Dev nD) (t : Fin cfg0.N) (p : Fin 16) (m : Fin 2048) (k : Fin 128)
    (hp : p.val = win0_6.index t (0 : Fin 3)) :
    iblk0 V c 1 t (ix3 (0 : Fin 1) m k) = V c main_arg0 (ix3 p m k) := by
  obtain ⟨f0a, f0b, f0c, f1a, f1b, f1c, f2a, f2b, f3, f4, f5, f6c, f6a, f6b, f7a, f7b, f7c⟩ := idx_facts t
  show V c main_arg0 (((cfg0.win 1).blk t).view.emb (ix3 (0 : Fin 1) m k)) = V c main_arg0 (ix3 p m k)
  have e : ((cfg0.win 1).blk t).view.emb (ix3 (0 : Fin 1) m k) = ix3 p m k := by
    funext a; apply Fin.ext
    match a with
    | ⟨0, _⟩ => show win0_1.index t (0 : Fin 3) * 1 + 1 * 0 = p.val; omega
    | ⟨1, _⟩ => show win0_1.index t (1 : Fin 3) * 2048 + 1 * m.val = m.val; omega
    | ⟨2, _⟩ => show win0_1.index t (2 : Fin 3) * 128 + 1 * k.val = k.val; omega
  rw [e]

theorem readW (c : Dev nD) (t : Fin cfg0.N) (k j : Fin 128) :
    iblk0 V c 2 t (ix2 k j) = V c main_arg2 (ix2 k j) := by
  obtain ⟨f0a, f0b, f0c, f1a, f1b, f1c, f2a, f2b, f3, f4, f5, f6c, f6a, f6b, f7a, f7b, f7c⟩ := idx_facts t
  show V c main_arg2 (((cfg0.win 2).blk t).view.emb (ix2 k j)) = V c main_arg2 (ix2 k j)
  have e : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  rw [e]

theorem readB (c : Dev nD) (t : Fin cfg0.N) (j : Fin 128) : iblk0 V c 3 t (ix1 j) = V c main_arg3 (ix1 j) := by
  obtain ⟨f0a, f0b, f0c, f1a, f1b, f1c, f2a, f2b, f3, f4, f5, f6c, f6a, f6b, f7a, f7b, f7c⟩ := idx_facts t
  show V c main_arg3 (((cfg0.win 3).blk t).view.emb (ix1 j)) = V c main_arg3 (ix1 j)
  have e : ((cfg0.win 3).blk t).view.emb (ix1 j) = ix1 j := by
    funext a; apply Fin.ext
    match a with
    | ⟨0, _⟩ => show win0_3.index t (0 : Fin 1) * 128 + 1 * j.val = j.val; omega
  rw [e]

theorem readG (c : Dev nD) (t : Fin cfg0.N) (j : Fin 128) : iblk0 V c 4 t (ix1 j) = V c main_arg4 (ix1 j) := by
  obtain ⟨f0a, f0b, f0c, f1a, f1b, f1c, f2a, f2b, f3, f4, f5, f6c, f6a, f6b, f7a, f7b, f7c⟩ := idx_facts t
  show V c main_arg4 (((cfg0.win 4).blk t).view.emb (ix1 j)) = V c main_arg4 (ix1 j)
  have e : ((cfg0.win 4).blk t).view.emb (ix1 j) = ix1 j := by
    funext a; apply Fin.ext
    match a with
    | ⟨0, _⟩ => show win0_4.index t (0 : Fin 1) * 128 + 1 * j.val = j.val; omega
  rw [e]

theorem readBe (c : Dev nD) (t : Fin cfg0.N) (j : Fin 128) : iblk0 V c 5 t (ix1 j) = V c main_arg5 (ix1 j) := by
  obtain ⟨f0a, f0b, f0c, f1a, f1b, f1c, f2a, f2b, f3, f4, f5, f6c, f6a, f6b, f7a, f7b, f7c⟩ := idx_facts t
  show V c main_arg5 (((cfg0.win 5).blk t).view.emb (ix1 j)) = V c main_arg5 (ix1 j)
  have e : ((cfg0.win 5).blk t).view.emb (ix1 j) = ix1 j := by
    funext a; apply Fin.ext
    match a with
    | ⟨0, _⟩ => show win0_5.index t (0 : Fin 1) * 128 + 1 * j.val = j.val; omega
  rw [e]

/-! ## What a point writes back, and the array after the launch -/

/-- The layer of the arrays as the launch finds them. -/
def result (c : Dev nD) : S16x2048x128.Idx → EReal :=
  layer (fun i => V c main_arg1 i) (fun i => V c main_arg0 i) (fun i => V c main_arg2 i) (fun i => V c main_arg3 i) (fun i => V c main_arg4 i) (fun i => V c main_arg5 i)

/-- What point `t` writes back is its tile of the layer. -/
theorem flushed (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  funext y
  obtain ⟨u, r, d, rfl⟩ : ∃ (u : Fin 1) (r : Fin 1024) (d : Fin 128), y = ix3 u r d := ⟨y 0, y 1, y 2, eq_ix3 y⟩
  refine (out0_6_apply (iblk0 V c 0 t) (iblk0 V c 1 t) (iblk0 V c 2 t) (iblk0 V c 3 t) (iblk0 V c 4 t) (iblk0 V c 5 t) u r d).trans ?_
  obtain ⟨f0a, f0b, f0c, f1a, f1b, f1c, f2a, f2b, f3, f4, f5, f6c, f6a, f6b, f7a, f7b, f7c⟩ := idx_facts t
  have hu : u.val = 0 := by omega
  have hr : r.val < 1024 := r.isLt
  let p : Fin 16 := ⟨win0_6.index t (0 : Fin 3), by omega⟩
  let n : Fin 2048 := ⟨win0_6.index t (1 : Fin 3) * 1024 + r.val, by omega⟩
  have ey : ((cfg0.win 6).blk t).view.emb (ix3 u r d) = ix3 p n d := by
    funext a; apply Fin.ext
    match a with
    | ⟨0, _⟩ => show win0_6.index t (0 : Fin 3) * 1 + 1 * u.val = win0_6.index t (0 : Fin 3); omega
    | ⟨1, _⟩ => show win0_6.index t (1 : Fin 3) * 1024 + 1 * r.val = win0_6.index t (1 : Fin 3) * 1024 + r.val; omega
    | ⟨2, _⟩ => show win0_6.index t (2 : Fin 3) * 128 + 1 * d.val = d.val; omega
  show _ = result V c (((cfg0.win 6).blk t).view.emb (ix3 u r d))
  rw [ey]
  unfold result
  rw [layer_ix3]
  have hA : (fun m : Fin 2048 => iblk0 V c 0 t (ix3 (0 : Fin 1) r m)) = fun m => V c main_arg1 (ix3 p n m) :=
    funext fun m => readA V c t p n r m rfl rfl
  have hH : (fun (m : Fin 2048) (k : Fin 128) => iblk0 V c 1 t (ix3 (0 : Fin 1) m k)) = fun m k => V c main_arg0 (ix3 p m k) :=
    funext fun m => funext fun k => readH V c t p m k rfl
  have hW : (fun (k j : Fin 128) => iblk0 V c 2 t (ix2 k j)) = fun k j => V c main_arg2 (ix2 k j) :=
    funext fun k => funext fun j => readW V c t k j
  have hB : (fun j : Fin 128 => iblk0 V c 3 t (ix1 j)) = fun j => V c main_arg3 (ix1 j) := funext fun j => readB V c t j
  have hG : (fun j : Fin 128 => iblk0 V c 4 t (ix1 j)) = fun j => V c main_arg4 (ix1 j) := funext fun j => readG V c t j
  have hBe : (fun j : Fin 128 => iblk0 V c 5 t (ix1 j)) = fun j => V c main_arg5 (ix1 j) := funext fun j => readBe V c t j
  rw [hA, hH, hW, hB, hG, hBe]

/-- An index of the result array is in point `t`'s tile iff each coordinate is in the tile's range on its axis. -/
theorem mem_blk (t : Fin cfg0.N) (i : S16x2048x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v0_0).slice (win0_6.rect t)).set ↔ _
  rw [View.set_slice_whole, Rect.mem_set_unit]
  exact Iff.rfl

/-- The 32 tiles cover the result array: node `n` of graph `p` is in the tile of point `(p, n / 1024)`. -/
theorem cover (i : S16x2048x128.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 128 ≤ (i 2).val ∧ (i 2).val < win0_6.index t (2 : Fin 3) * 128 + 128; omega

/-- After the launch the result array holds the layer of the arrays the launch found. -/
theorem final (c : Dev nD) : (dat0 V c).arrAt 6 cfg0.N = result V c :=
  (dat0 V c).arrAt_eq_of_cover 6 (result V c) (fun t _ => flushed V c t) cover

/-- The same, with the arrays the launch finds named. -/
theorem final_of (c : Dev nD) (A : (⟨3, ![16, 2048, 2048]⟩ : Shape).Idx → EReal) (H : (⟨3, ![16, 2048, 128]⟩ : Shape).Idx → EReal)
    (W : (⟨2, ![128, 128]⟩ : Shape).Idx → EReal) (b g be : (⟨1, ![128]⟩ : Shape).Idx → EReal)
    (hA : ∀ i, V c main_arg1 i = A i) (hH : ∀ i, V c main_arg0 i = H i) (hW : ∀ i, V c main_arg2 i = W i)
    (hb : ∀ i, V c main_arg3 i = b i) (hg : ∀ i, V c main_arg4 i = g i) (hbe : ∀ i, V c main_arg5 i = be i) :
    (dat0 V c).arrAt 6 cfg0.N = layer A H W b g be := by
  rw [final]
  unfold result
  rw [funext hA, funext hH, funext hW, funext hb, funext hg, funext hbe]

/-! ## The stored copy of the adjacency -/

/-- What point `t` writes back to the copy is its block of the adjacency. -/
theorem flushedCopy (c : Dev nD) (t : Fin cfg0.N) :
    (dat0 V c).flushed 7 t = ((cfg0.win 7).blk t).view.read (Elt Ideal) (fun i => V c main_arg1 i) := by
  show (cfg0.win 7).cut (grid0.coords t) ((dat0 V c).after 7 t) = _
  rw [after0_7]
  funext y
  obtain ⟨u, r, k, rfl⟩ : ∃ (u : Fin 1) (r : Fin 1024) (k : Fin 2048), y = ix3 u r k := ⟨y 0, y 1, y 2, eq_ix3 y⟩
  refine (out0_7_apply (iblk0 V c 0 t) (iblk0 V c 1 t) (iblk0 V c 2 t) (iblk0 V c 3 t) (iblk0 V c 4 t) (iblk0 V c 5 t) u r k).trans ?_
  obtain ⟨f0a, f0b, f0c, f1a, f1b, f1c, f2a, f2b, f3, f4, f5, f6c, f6a, f6b, f7a, f7b, f7c⟩ := idx_facts t
  show V c main_arg1 (((cfg0.win 0).blk t).view.emb (ix3 (0 : Fin 1) r k)) = V c main_arg1 (((cfg0.win 7).blk t).view.emb (ix3 u r k))
  have e : ((cfg0.win 0).blk t).view.emb (ix3 (0 : Fin 1) r k) = ((cfg0.win 7).blk t).view.emb (ix3 u r k) := by
    funext a; apply Fin.ext
    have hu : u.val = 0 := by omega
    match a with
    | ⟨0, _⟩ => show win0_0.index t (0 : Fin 3) * 1 + 1 * 0 = win0_7.index t (0 : Fin 3) * 1 + 1 * u.val; omega
    | ⟨1, _⟩ => show win0_0.index t (1 : Fin 3) * 1024 + 1 * r.val = win0_7.index t (1 : Fin 3) * 1024 + 1 * r.val; omega
    | ⟨2, _⟩ => show win0_0.index t (2 : Fin 3) * 2048 + 1 * k.val = win0_7.index t (2 : Fin 3) * 2048 + 1 * k.val; omega
  rw [e]

theorem mem_blkCopy (t : Fin cfg0.N) (i : S16x2048x2048.Idx) :
    i ∈ ((cfg0.win 7).blk t).view.set ↔ ∀ a : Fin 3, win0_7.index t a * S1x1024x2048.size a ≤ (i a).val ∧ (i a).val < win0_7.index t a * S1x1024x2048.size a + S1x1024x2048.size a := by
  show i ∈ ((View.whole main_v0_1).slice (win0_7.rect t)).set ↔ _
  rw [View.set_slice_whole, Rect.mem_set_unit]
  exact Iff.rfl

theorem coverCopy (i : S16x2048x2048.Idx) :
    ∃ t : Fin cfg0.N, (cfg0.win 7).flush t = true ∧ i ∈ ((cfg0.win 7).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  obtain ⟨f0a, f0b, f0c, f1a, f1b, f1c, f2a, f2b, f3, f4, f5, f6c, f6a, f6b, f7a, f7b, f7c⟩ := idx_facts t
  have q0 : win0_6.index t (0 : Fin 3) = (i 0).val := congrFun ht 0
  have q1 : win0_6.index t (1 : Fin 3) = (i 1).val / 1024 := congrFun ht 1
  refine ⟨t, flush0_7 t, ?_⟩
  rw [mem_blkCopy]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 2048 ≤ (i 2).val ∧ (i 2).val < win0_7.index t (2 : Fin 3) * 2048 + 2048; omega

/-- After the launch the copy holds the adjacency. -/
theorem finalCopy (c : Dev nD) : (dat0 V c).arrAt 7 cfg0.N = fun i => V c main_arg1 i :=
  (dat0 V c).arrAt_eq_of_cover 7 (fun i => V c main_arg1 i) (fun t _ => flushedCopy V c t) coverCopy

end Cert.KernelIdeal.Launch0

end
-- ==== Proof.Launch1.lean ====
/-
  Launch 2 of 3: from the tiles its grid points write back to the whole result array.

  The grid is 16 graphs by 2 row tiles of 1024 nodes.  At point `(p, s)` the adjacency window is rows
  `1024·s … 1024·s + 1023` of graph `p`, the feature window all of graph `p`, the weights and the three vectors whole,
  and the result window the same rows of graph `p`.  So what the point writes back is the tile of
  `GraphLayer.layer` of the arrays as the launch finds them, the 32 tiles cover the result array, and the array ends
  holding that layer.
-/
import proofs.«158423_j87634512708198_2_alg».proof.Proof.Gen.KernelIdeal.Frame
import proofs.«158423_j87634512708198_2_alg».proof.Proof.TileValue

set_option maxRecDepth 16384

noncomputable section

namespace Cert.KernelIdeal.Launch1

open Cert.KernelIdeal Cert.KernelIdeal.Gen Cert.KernelIdeal.TileValue
open Idealize.ShloMosaic Idealize.ShloMosaic.TcCoe Idealize.ShloMosaic.ValueIdx Idealize.SL.Sem Cert.GraphLayer
open Idealize.ShloMosaic.Pipeline (Dat Cfg Window)

variable (V : (c : Dev nD) → (b : Ref sig .tc) → Buf (Elt Ideal) ((c : Thread nD τ).loc b))

/-- The printed index maps, decided over the 32 grid points: which block of each array a point's windows are. -/
theorem idx_facts : ∀ t : Fin cfg1.N,
    win1_0.index t (0 : Fin 3) = win1_6.index t (0 : Fin 3) ∧ win1_0.index t (1 : Fin 3) = win1_6.index t (1 : Fin 3)
    ∧ win1_0.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (2 : Fin 3) = 0 ∧ win1_6.index t (0 : Fin 3) ≤ 15 ∧ win1_6.index t (1 : Fin 3) ≤ 1 :=
  (by decide +kernel : ∀ t : Fin grid1.N, _)

/-- Every (graph, row tile) pair is some grid point's. -/
theorem idx_onto : ∀ (q0 : Fin 16) (q1 : Fin 2), ∃ t : Fin cfg1.N, win1_6.index t = ![q0.val, q1.val, 0] :=
  (by decide +kernel : ∀ (q0 : Fin 16) (q1 : Fin 2), ∃ t : Fin grid1.N, win1_6.index t = ![q0.val, q1.val, 0])

/-! ## The input blocks, read where the result tile's rows say -/

theorem readA (c : Dev nD) (t : Fin cfg1.N) (p : Fin 16) (n : Fin 2048) (r : Fin 1024) (m : Fin 2048)
    (hp : p.val = win1_6.index t (0 : Fin 3)) (hn : n.val = win1_6.index t (1 : Fin 3) * 1024 + r.val) :
    iblk1 V c 0 t (ix3 (0 : Fin 1) r m) = V c main_v0_1 (ix3 p n m) := by
  obtain ⟨f0a, f0b, f0c, f1a, f1b, f1c, f2a, f2b, f3, f4, f5, f6c, f6a, f6b⟩ := idx_facts t
  show V c main_v0_1 (((cfg1.win 0).blk t).view.emb (ix3 (0 : Fin 1) r m)) = V c main_v0_1 (ix3 p n m)
  have e : ((cfg1.win 0).blk t).view.emb (ix3 (0 : Fin 1) r m) = ix3 p n m := by
    funext a; apply Fin.ext
    match a with
    | ⟨0, _⟩ => show win1_0.index t (0 : Fin 3) * 1 + 1 * 0 = p.val; omega
    | ⟨1, _⟩ => show win1_0.index t (1 : Fin 3) * 1024 + 1 * r.val = n.val; omega
    | ⟨2, _⟩ => show win1_0.index t (2 : Fin 3) * 2048 + 1 * m.val = m.val; omega
  rw [e]

theorem readH (c : Dev nD) (t : Fin cfg1.N) (p : Fin 16) (m : Fin 2048) (k : Fin 128)
    (hp : p.val = win1_6.index t (0 : Fin 3)) :
    iblk1 V c 1 t (ix3 (0 : Fin 1) m k) = V c main_v0_0 (ix3 p m k) := by
  obtain ⟨f0a, f0b, f0c, f1a, f1b, f1c, f2a, f2b, f3, f4, f5, f6c, f6a, f6b⟩ := idx_facts t
  show V c main_v0_0 (((cfg1.win 1).blk t).view.emb (ix3 (0 : Fin 1) m k)) = V c main_v0_0 (ix3 p m k)
  have e : ((cfg1.win 1).blk t).view.emb (ix3 (0 : Fin 1) m k) = ix3 p m k := by
    funext a; apply Fin.ext
    match a with
    | ⟨0, _⟩ => show win1_1.index t (0 : Fin 3) * 1 + 1 * 0 = p.val; omega
    | ⟨1, _⟩ => show win1_1.index t (1 : Fin 3) * 2048 + 1 * m.val = m.val; omega
    | ⟨2, _⟩ => show win1_1.index t (2 : Fin 3) * 128 + 1 * k.val = k.val; omega
  rw [e]

theorem readW (c : Dev nD) (t : Fin cfg1.N) (k j : Fin 128) :
    iblk1 V c 2 t (ix2 k j) = V c main_arg6 (ix2 k j) := by
  obtain ⟨f0a, f0b, f0c, f1a, f1b, f1c, f2a, f2b, f3, f4, f5, f6c, f6a, f6b⟩ := idx_facts t
  show V c main_arg6 (((cfg1.win 2).blk t).view.emb (ix2 k j)) = V c main_arg6 (ix2 k j)
  have e : ((cfg1.win 2).blk t).view.emb (ix2 k j) = ix2 k j := by
    funext a; apply Fin.ext
    match a with
    | ⟨0, _⟩ => show win1_2.index t (0 : Fin 2) * 128 + 1 * k.val = k.val; omega
    | ⟨1, _⟩ => show win1_2.index t (1 : Fin 2) * 128 + 1 * j.val = j.val; omega
  rw [e]

theorem readB (c : Dev nD) (t : Fin cfg1.N) (j : Fin 128) : iblk1 V c 3 t (ix1 j) = V c main_arg7 (ix1 j) := by
  obtain ⟨f0a, f0b, f0c, f1a, f1b, f1c, f2a, f2b, f3, f4, f5, f6c, f6a, f6b⟩ := idx_facts t
  show V c main_arg7 (((cfg1.win 3).blk t).view.emb (ix1 j)) = V c main_arg7 (ix1 j)
  have e : ((cfg1.win 3).blk t).view.emb (ix1 j) = ix1 j := by
    funext a; apply Fin.ext
    match a with
    | ⟨0, _⟩ => show win1_3.index t (0 : Fin 1) * 128 + 1 * j.val = j.val; omega
  rw [e]

theorem readG (c : Dev nD) (t : Fin cfg1.N) (j : Fin 128) : iblk1 V c 4 t (ix1 j) = V c main_arg8 (ix1 j) := by
  obtain ⟨f0a, f0b, f0c, f1a, f1b, f1c, f2a, f2b, f3, f4, f5, f6c, f6a, f6b⟩ := idx_facts t
  show V c main_arg8 (((cfg1.win 4).blk t).view.emb (ix1 j)) = V c main_arg8 (ix1 j)
  have e : ((cfg1.win 4).blk t).view.emb (ix1 j) = ix1 j := by
    funext a; apply Fin.ext
    match a with
    | ⟨0, _⟩ => show win1_4.index t (0 : Fin 1) * 128 + 1 * j.val = j.val; omega
  rw [e]

theorem readBe (c : Dev nD) (t : Fin cfg1.N) (j : Fin 128) : iblk1 V c 5 t (ix1 j) = V c main_arg9 (ix1 j) := by
  obtain ⟨f0a, f0b, f0c, f1a, f1b, f1c, f2a, f2b, f3, f4, f5, f6c, f6a, f6b⟩ := idx_facts t
  show V c main_arg9 (((cfg1.win 5).blk t).view.emb (ix1 j)) = V c main_arg9 (ix1 j)
  have e : ((cfg1.win 5).blk t).view.emb (ix1 j) = ix1 j := by
    funext a; apply Fin.ext
    match a with
    | ⟨0, _⟩ => show win1_5.index t (0 : Fin 1) * 128 + 1 * j.val = j.val; omega
  rw [e]

/-! ## What a point writes back, and the array after the launch -/

/-- The layer of the arrays as the launch finds them. -/
def result (c : Dev nD) : S16x2048x128.Idx → EReal :=
  layer (fun i => V c main_v0_1 i) (fun i => V c main_v0_0 i) (fun i => V c main_arg6 i) (fun i => V c main_arg7 i) (fun i => V c main_arg8 i) (fun i => V c main_arg9 i)

/-- What point `t` writes back is its tile of the layer. -/
theorem flushed (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  funext y
  obtain ⟨u, r, d, rfl⟩ : ∃ (u : Fin 1) (r : Fin 1024) (d : Fin 128), y = ix3 u r d := ⟨y 0, y 1, y 2, eq_ix3 y⟩
  refine (out1_6_apply (iblk1 V c 0 t) (iblk1 V c 1 t) (iblk1 V c 2 t) (iblk1 V c 3 t) (iblk1 V c 4 t) (iblk1 V c 5 t) u r d).trans ?_
  obtain ⟨f0a, f0b, f0c, f1a, f1b, f1c, f2a, f2b, f3, f4, f5, f6c, f6a, f6b⟩ := idx_facts t
  have hu : u.val = 0 := by omega
  have hr : r.val < 1024 := r.isLt
  let p : Fin 16 := ⟨win1_6.index t (0 : Fin 3), by omega⟩
  let n : Fin 2048 := ⟨win1_6.index t (1 : Fin 3) * 1024 + r.val, by omega⟩
  have ey : ((cfg1.win 6).blk t).view.emb (ix3 u r d) = ix3 p n d := by
    funext a; apply Fin.ext
    match a with
    | ⟨0, _⟩ => show win1_6.index t (0 : Fin 3) * 1 + 1 * u.val = win1_6.index t (0 : Fin 3); omega
    | ⟨1, _⟩ => show win1_6.index t (1 : Fin 3) * 1024 + 1 * r.val = win1_6.index t (1 : Fin 3) * 1024 + r.val; omega
    | ⟨2, _⟩ => show win1_6.index t (2 : Fin 3) * 128 + 1 * d.val = d.val; omega
  show _ = result V c (((cfg1.win 6).blk t).view.emb (ix3 u r d))
  rw [ey]
  unfold result
  rw [layer_ix3]
  have hA : (fun m : Fin 2048 => iblk1 V c 0 t (ix3 (0 : Fin 1) r m)) = fun m => V c main_v0_1 (ix3 p n m) :=
    funext fun m => readA V c t p n r m rfl rfl
  have hH : (fun (m : Fin 2048) (k : Fin 128) => iblk1 V c 1 t (ix3 (0 : Fin 1) m k)) = fun m k => V c main_v0_0 (ix3 p m k) :=
    funext fun m => funext fun k => readH V c t p m k rfl
  have hW : (fun (k j : Fin 128) => iblk1 V c 2 t (ix2 k j)) = fun k j => V c main_arg6 (ix2 k j) :=
    funext fun k => funext fun j => readW V c t k j
  have hB : (fun j : Fin 128 => iblk1 V c 3 t (ix1 j)) = fun j => V c main_arg7 (ix1 j) := funext fun j => readB V c t j
  have hG : (fun j : Fin 128 => iblk1 V c 4 t (ix1 j)) = fun j => V c main_arg8 (ix1 j) := funext fun j => readG V c t j
  have hBe : (fun j : Fin 128 => iblk1 V c 5 t (ix1 j)) = fun j => V c main_arg9 (ix1 j) := funext fun j => readBe V c t j
  rw [hA, hH, hW, hB, hG, hBe]

/-- An index of the result array is in point `t`'s tile iff each coordinate is in the tile's range on its axis. -/
theorem mem_blk (t : Fin cfg1.N) (i : S16x2048x128.Idx) :
    i ∈ ((cfg1.win 6).blk t).view.set ↔ ∀ a : Fin 3, win1_6.index t a * S1x1024x128.size a ≤ (i a).val ∧ (i a).val < win1_6.index t a * S1x1024x128.size a + S1x1024x128.size a := by
  show i ∈ ((View.whole main_v1).slice (win1_6.rect t)).set ↔ _
  rw [View.set_slice_whole, Rect.mem_set_unit]
  exact Iff.rfl

/-- The 32 tiles cover the result array: node `n` of graph `p` is in the tile of point `(p, n / 1024)`. -/
theorem cover (i : S16x2048x128.Idx) :
    ∃ t : Fin cfg1.N, (cfg1.win 6).flush t = true ∧ i ∈ ((cfg1.win 6).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win1_6.index t (0 : Fin 3) = (i 0).val := congrFun ht 0
  have q1 : win1_6.index t (1 : Fin 3) = (i 1).val / 1024 := congrFun ht 1
  have q2 : win1_6.index t (2 : Fin 3) = 0 := congrFun ht 2
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 128 ≤ (i 2).val ∧ (i 2).val < win1_6.index t (2 : Fin 3) * 128 + 128; omega

/-- After the launch the result array holds the layer of the arrays the launch found. -/
theorem final (c : Dev nD) : (dat1 V c).arrAt 6 cfg1.N = result V c :=
  (dat1 V c).arrAt_eq_of_cover 6 (result V c) (fun t _ => flushed V c t) cover

/-- The same, with the arrays the launch finds named. -/
theorem final_of (c : Dev nD) (A : (⟨3, ![16, 2048, 2048]⟩ : Shape).Idx → EReal) (H : (⟨3, ![16, 2048, 128]⟩ : Shape).Idx → EReal)
    (W : (⟨2, ![128, 128]⟩ : Shape).Idx → EReal) (b g be : (⟨1, ![128]⟩ : Shape).Idx → EReal)
    (hA : ∀ i, V c main_v0_1 i = A i) (hH : ∀ i, V c main_v0_0 i = H i) (hW : ∀ i, V c main_arg6 i = W i)
    (hb : ∀ i, V c main_arg7 i = b i) (hg : ∀ i, V c main_arg8 i = g i) (hbe : ∀ i, V c main_arg9 i = be i) :
    (dat1 V c).arrAt 6 cfg1.N = layer A H W b g be := by
  rw [final]
  unfold result
  rw [funext hA, funext hH, funext hW, funext hb, funext hg, funext hbe]

end Cert.KernelIdeal.Launch1

end
-- ==== Proof.Launch2.lean ====
/-
  Launch 3 of 3: from the tiles its grid points write back to the whole result array.

  The grid is 16 graphs by 2 row tiles of 1024 nodes.  At point `(p, s)` the adjacency window is rows
  `1024·s … 1024·s + 1023` of graph `p`, the feature window all of graph `p`, the weights and the three vectors whole,
  and the result window the same rows of graph `p`.  So what the point writes back is the tile of
  `GraphLayer.layer` of the arrays as the launch finds them, the 32 tiles cover the result array, and the array ends
  holding that layer.
-/
import proofs.«158423_j87634512708198_2_alg».proof.Proof.Gen.KernelIdeal.Frame
import proofs.«158423_j87634512708198_2_alg».proof.Proof.TileValue

set_option maxRecDepth 16384

noncomputable section

namespace Cert.KernelIdeal.Launch2

open Cert.KernelIdeal Cert.KernelIdeal.Gen Cert.KernelIdeal.TileValue
open Idealize.ShloMosaic Idealize.ShloMosaic.TcCoe Idealize.ShloMosaic.ValueIdx Idealize.SL.Sem Cert.GraphLayer
open Idealize.ShloMosaic.Pipeline (Dat Cfg Window)

variable (V : (c : Dev nD) → (b : Ref sig .tc) → Buf (Elt Ideal) ((c : Thread nD τ).loc b))

/-- The printed index maps, decided over the 32 grid points: which block of each array a point's windows are. -/
theorem idx_facts : ∀ t : Fin cfg2.N,
    win2_0.index t (0 : Fin 3) = win2_6.index t (0 : Fin 3) ∧ win2_0.index t (1 : Fin 3) = win2_6.index t (1 : Fin 3)
    ∧ win2_0.index t (2 : Fin 3) = 0
    ∧ win2_1.index t (0 : Fin 3) = win2_6.index t (0 : Fin 3) ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (2 : Fin 3) = 0 ∧ win2_6.index t (0 : Fin 3) ≤ 15 ∧ win2_6.index t (1 : Fin 3) ≤ 1 :=
  (by decide +kernel : ∀ t : Fin grid2.N, _)

/-- Every (graph, row tile) pair is some grid point's. -/
theorem idx_onto : ∀ (q0 : Fin 16) (q1 : Fin 2), ∃ t : Fin cfg2.N, win2_6.index t = ![q0.val, q1.val, 0] :=
  (by decide +kernel : ∀ (q0 : Fin 16) (q1 : Fin 2), ∃ t : Fin grid2.N, win2_6.index t = ![q0.val, q1.val, 0])

/-! ## The input blocks, read where the result tile's rows say -/

theorem readA (c : Dev nD) (t : Fin cfg2.N) (p : Fin 16) (n : Fin 2048) (r : Fin 1024) (m : Fin 2048)
    (hp : p.val = win2_6.index t (0 : Fin 3)) (hn : n.val = win2_6.index t (1 : Fin 3) * 1024 + r.val) :
    iblk2 V c 0 t (ix3 (0 : Fin 1) r m) = V c main_v0_1 (ix3 p n m) := by
  obtain ⟨f0a, f0b, f0c, f1a, f1b, f1c, f2a, f2b, f3, f4, f5, f6c, f6a, f6b⟩ := idx_facts t
  show V c main_v0_1 (((cfg2.win 0).blk t).view.emb (ix3 (0 : Fin 1) r m)) = V c main_v0_1 (ix3 p n m)
  have e : ((cfg2.win 0).blk t).view.emb (ix3 (0 : Fin 1) r m) = ix3 p n m := by
    funext a; apply Fin.ext
    match a with
    | ⟨0, _⟩ => show win2_0.index t (0 : Fin 3) * 1 + 1 * 0 = p.val; omega
    | ⟨1, _⟩ => show win2_0.index t (1 : Fin 3) * 1024 + 1 * r.val = n.val; omega
    | ⟨2, _⟩ => show win2_0.index t (2 : Fin 3) * 2048 + 1 * m.val = m.val; omega
  rw [e]

theorem readH (c : Dev nD) (t : Fin cfg2.N) (p : Fin 16) (m : Fin 2048) (k : Fin 128)
    (hp : p.val = win2_6.index t (0 : Fin 3)) :
    iblk2 V c 1 t (ix3 (0 : Fin 1) m k) = V c main_v1 (ix3 p m k) := by
  obtain ⟨f0a, f0b, f0c, f1a, f1b, f1c, f2a, f2b, f3, f4, f5, f6c, f6a, f6b⟩ := idx_facts t
  show V c main_v1 (((cfg2.win 1).blk t).view.emb (ix3 (0 : Fin 1) m k)) = V c main_v1 (ix3 p m k)
  have e : ((cfg2.win 1).blk t).view.emb (ix3 (0 : Fin 1) m k) = ix3 p m k := by
    funext a; apply Fin.ext
    match a with
    | ⟨0, _⟩ => show win2_1.index t (0 : Fin 3) * 1 + 1 * 0 = p.val; omega
    | ⟨1, _⟩ => show win2_1.index t (1 : Fin 3) * 2048 + 1 * m.val = m.val; omega
    | ⟨2, _⟩ => show win2_1.index t (2 : Fin 3) * 128 + 1 * k.val = k.val; omega
  rw [e]

theorem readW (c : Dev nD) (t : Fin cfg2.N) (k j : Fin 128) :
    iblk2 V c 2 t (ix2 k j) = V c main_arg10 (ix2 k j) := by
  obtain ⟨f0a, f0b, f0c, f1a, f1b, f1c, f2a, f2b, f3, f4, f5, f6c, f6a, f6b⟩ := idx_facts t
  show V c main_arg10 (((cfg2.win 2).blk t).view.emb (ix2 k j)) = V c main_arg10 (ix2 k j)
  have e : ((cfg2.win 2).blk t).view.emb (ix2 k j) = ix2 k j := by
    funext a; apply Fin.ext
    match a with
    | ⟨0, _⟩ => show win2_2.index t (0 : Fin 2) * 128 + 1 * k.val = k.val; omega
    | ⟨1, _⟩ => show win2_2.index t (1 : Fin 2) * 128 + 1 * j.val = j.val; omega
  rw [e]

theorem readB (c : Dev nD) (t : Fin cfg2.N) (j : Fin 128) : iblk2 V c 3 t (ix1 j) = V c main_arg11 (ix1 j) := by
  obtain ⟨f0a, f0b, f0c, f1a, f1b, f1c, f2a, f2b, f3, f4, f5, f6c, f6a, f6b⟩ := idx_facts t
  show V c main_arg11 (((cfg2.win 3).blk t).view.emb (ix1 j)) = V c main_arg11 (ix1 j)
  have e : ((cfg2.win 3).blk t).view.emb (ix1 j) = ix1 j := by
    funext a; apply Fin.ext
    match a with
    | ⟨0, _⟩ => show win2_3.index t (0 : Fin 1) * 128 + 1 * j.val = j.val; omega
  rw [e]

theorem readG (c : Dev nD) (t : Fin cfg2.N) (j : Fin 128) : iblk2 V c 4 t (ix1 j) = V c main_arg12 (ix1 j) := by
  obtain ⟨f0a, f0b, f0c, f1a, f1b, f1c, f2a, f2b, f3, f4, f5, f6c, f6a, f6b⟩ := idx_facts t
  show V c main_arg12 (((cfg2.win 4).blk t).view.emb (ix1 j)) = V c main_arg12 (ix1 j)
  have e : ((cfg2.win 4).blk t).view.emb (ix1 j) = ix1 j := by
    funext a; apply Fin.ext
    match a with
    | ⟨0, _⟩ => show win2_4.index t (0 : Fin 1) * 128 + 1 * j.val = j.val; omega
  rw [e]

theorem readBe (c : Dev nD) (t : Fin cfg2.N) (j : Fin 128) : iblk2 V c 5 t (ix1 j) = V c main_arg13 (ix1 j) := by
  obtain ⟨f0a, f0b, f0c, f1a, f1b, f1c, f2a, f2b, f3, f4, f5, f6c, f6a, f6b⟩ := idx_facts t
  show V c main_arg13 (((cfg2.win 5).blk t).view.emb (ix1 j)) = V c main_arg13 (ix1 j)
  have e : ((cfg2.win 5).blk t).view.emb (ix1 j) = ix1 j := by
    funext a; apply Fin.ext
    match a with
    | ⟨0, _⟩ => show win2_5.index t (0 : Fin 1) * 128 + 1 * j.val = j.val; omega
  rw [e]

/-! ## What a point writes back, and the array after the launch -/

/-- The layer of the arrays as the launch finds them. -/
def result (c : Dev nD) : S16x2048x128.Idx → EReal :=
  layer (fun i => V c main_v0_1 i) (fun i => V c main_v1 i) (fun i => V c main_arg10 i) (fun i => V c main_arg11 i) (fun i => V c main_arg12 i) (fun i => V c main_arg13 i)

/-- What point `t` writes back is its tile of the layer. -/
theorem flushed (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  funext y
  obtain ⟨u, r, d, rfl⟩ : ∃ (u : Fin 1) (r : Fin 1024) (d : Fin 128), y = ix3 u r d := ⟨y 0, y 1, y 2, eq_ix3 y⟩
  refine (out2_6_apply (iblk2 V c 0 t) (iblk2 V c 1 t) (iblk2 V c 2 t) (iblk2 V c 3 t) (iblk2 V c 4 t) (iblk2 V c 5 t) u r d).trans ?_
  obtain ⟨f0a, f0b, f0c, f1a, f1b, f1c, f2a, f2b, f3, f4, f5, f6c, f6a, f6b⟩ := idx_facts t
  have hu : u.val = 0 := by omega
  have hr : r.val < 1024 := r.isLt
  let p : Fin 16 := ⟨win2_6.index t (0 : Fin 3), by omega⟩
  let n : Fin 2048 := ⟨win2_6.index t (1 : Fin 3) * 1024 + r.val, by omega⟩
  have ey : ((cfg2.win 6).blk t).view.emb (ix3 u r d) = ix3 p n d := by
    funext a; apply Fin.ext
    match a with
    | ⟨0, _⟩ => show win2_6.index t (0 : Fin 3) * 1 + 1 * u.val = win2_6.index t (0 : Fin 3); omega
    | ⟨1, _⟩ => show win2_6.index t (1 : Fin 3) * 1024 + 1 * r.val = win2_6.index t (1 : Fin 3) * 1024 + r.val; omega
    | ⟨2, _⟩ => show win2_6.index t (2 : Fin 3) * 128 + 1 * d.val = d.val; omega
  show _ = result V c (((cfg2.win 6).blk t).view.emb (ix3 u r d))
  rw [ey]
  unfold result
  rw [layer_ix3]
  have hA : (fun m : Fin 2048 => iblk2 V c 0 t (ix3 (0 : Fin 1) r m)) = fun m => V c main_v0_1 (ix3 p n m) :=
    funext fun m => readA V c t p n r m rfl rfl
  have hH : (fun (m : Fin 2048) (k : Fin 128) => iblk2 V c 1 t (ix3 (0 : Fin 1) m k)) = fun m k => V c main_v1 (ix3 p m k) :=
    funext fun m => funext fun k => readH V c t p m k rfl
  have hW : (fun (k j : Fin 128) => iblk2 V c 2 t (ix2 k j)) = fun k j => V c main_arg10 (ix2 k j) :=
    funext fun k => funext fun j => readW V c t k j
  have hB : (fun j : Fin 128 => iblk2 V c 3 t (ix1 j)) = fun j => V c main_arg11 (ix1 j) := funext fun j => readB V c t j
  have hG : (fun j : Fin 128 => iblk2 V c 4 t (ix1 j)) = fun j => V c main_arg12 (ix1 j) := funext fun j => readG V c t j
  have hBe : (fun j : Fin 128 => iblk2 V c 5 t (ix1 j)) = fun j => V c main_arg13 (ix1 j) := funext fun j => readBe V c t j
  rw [hA, hH, hW, hB, hG, hBe]

/-- An index of the result array is in point `t`'s tile iff each coordinate is in the tile's range on its axis. -/
theorem mem_blk (t : Fin cfg2.N) (i : S16x2048x128.Idx) :
    i ∈ ((cfg2.win 6).blk t).view.set ↔ ∀ a : Fin 3, win2_6.index t a * S1x1024x128.size a ≤ (i a).val ∧ (i a).val < win2_6.index t a * S1x1024x128.size a + S1x1024x128.size a := by
  show i ∈ ((View.whole main_v2).slice (win2_6.rect t)).set ↔ _
  rw [View.set_slice_whole, Rect.mem_set_unit]
  exact Iff.rfl

/-- The 32 tiles cover the result array: node `n` of graph `p` is in the tile of point `(p, n / 1024)`. -/
theorem cover (i : S16x2048x128.Idx) :
    ∃ t : Fin cfg2.N, (cfg2.win 6).flush t = true ∧ i ∈ ((cfg2.win 6).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win2_6.index t (0 : Fin 3) = (i 0).val := congrFun ht 0
  have q1 : win2_6.index t (1 : Fin 3) = (i 1).val / 1024 := congrFun ht 1
  have q2 : win2_6.index t (2 : Fin 3) = 0 := congrFun ht 2
  refine ⟨t, flush2_6 t, ?_⟩
  rw [mem_blk]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1024 ≤ (i 1).val ∧ (i 1).val < win2_6.index t (1 : Fin 3) * 1024 + 1024; omega
  | ⟨2, _⟩ => show win2_6.index t (2 : Fin 3) * 128 ≤ (i 2).val ∧ (i 2).val < win2_6.index t (2 : Fin 3) * 128 + 128; omega

/-- After the launch the result array holds the layer of the arrays the launch found. -/
theorem final (c : Dev nD) : (dat2 V c).arrAt 6 cfg2.N = result V c :=
  (dat2 V c).arrAt_eq_of_cover 6 (result V c) (fun t _ => flushed V c t) cover

/-- The same, with the arrays the launch finds named. -/
theorem final_of (c : Dev nD) (A : (⟨3, ![16, 2048, 2048]⟩ : Shape).Idx → EReal) (H : (⟨3, ![16, 2048, 128]⟩ : Shape).Idx → EReal)
    (W : (⟨2, ![128, 128]⟩ : Shape).Idx → EReal) (b g be : (⟨1, ![128]⟩ : Shape).Idx → EReal)
    (hA : ∀ i, V c main_v0_1 i = A i) (hH : ∀ i, V c main_v1 i = H i) (hW : ∀ i, V c main_arg10 i = W i)
    (hb : ∀ i, V c main_arg11 i = b i) (hg : ∀ i, V c main_arg12 i = g i) (hbe : ∀ i, V c main_arg13 i = be i) :
    (dat2 V c).arrAt 6 cfg2.N = layer A H W b g be := by
  rw [final]
  unfold result
  rw [funext hA, funext hH, funext hW, funext hb, funext hg, funext hbe]

end Cert.KernelIdeal.Launch2

end
-- ==== Proof.KernelValue.lean ====
/-
  The kernel program's result as a function of its arguments: three graph-convolution layers.

  The first launch leaves the first layer of the input features in its result array and a copy of the adjacency in its
  second one; the second launch reads both and leaves the second layer; the third reads the copy and the second layer
  and leaves the third, which is the program's result.  No launch writes an argument array, and each launch's other
  arrays are as the previous boundary left them.
-/
import proofs.«158423_j87634512708198_2_alg».proof.Proof.KernelRun
import proofs.«158423_j87634512708198_2_alg».proof.Proof.Launch0
import proofs.«158423_j87634512708198_2_alg».proof.Proof.Launch1
import proofs.«158423_j87634512708198_2_alg».proof.Proof.Launch2

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem Cert.GraphLayer
open Idealize.ShloMosaic.Pipeline (Dat Cfg Window)

variable (m : (ℓ : Loc nD τ sig) → Buf (Elt Ideal) ℓ) (ρ : Dev nD → PrngReg)

/-- The three layers of the argument arrays. -/
def layers (c : Dev nD) : (⟨3, ![16, 2048, 128]⟩ : Shape).Idx → EReal :=
  (layer (fun i => m ((c : Thread nD τ).loc main_arg1) i) (layer (fun i => m ((c : Thread nD τ).loc main_arg1) i) (layer (fun i => m ((c : Thread nD τ).loc main_arg1) i) (fun i => m ((c : Thread nD τ).loc main_arg0) i) (fun i => m ((c : Thread nD τ).loc main_arg2) i) (fun i => m ((c : Thread nD τ).loc main_arg3) i) (fun i => m ((c : Thread nD τ).loc main_arg4) i) (fun i => m ((c : Thread nD τ).loc main_arg5) i)) (fun i => m ((c : Thread nD τ).loc main_arg6) i) (fun i => m ((c : Thread nD τ).loc main_arg7) i) (fun i => m ((c : Thread nD τ).loc main_arg8) i) (fun i => m ((c : Thread nD τ).loc main_arg9) i)) (fun i => m ((c : Thread nD τ).loc main_arg10) i) (fun i => m ((c : Thread nD τ).loc main_arg11) i) (fun i => m ((c : Thread nD τ).loc main_arg12) i) (fun i => m ((c : Thread nD τ).loc main_arg13) i))

/-- The last boundary's contents at the result array are the three layers. -/
theorem result_eq (c : Dev nD) : W3 m ρ c (Proc.devRef .tc main_v2) = layers m c := by
  have l1 : (dat0 (V0 m ρ) c).arrAt 6 cfg0.N = (layer (fun i => m ((c : Thread nD τ).loc main_arg1) i) (fun i => m ((c : Thread nD τ).loc main_arg0) i) (fun i => m ((c : Thread nD τ).loc main_arg2) i) (fun i => m ((c : Thread nD τ).loc main_arg3) i) (fun i => m ((c : Thread nD τ).loc main_arg4) i) (fun i => m ((c : Thread nD τ).loc main_arg5) i)) :=
    Launch0.final_of (V0 m ρ) c _ _ _ _ _ _ (fun _ => rfl) (fun _ => rfl) (fun _ => rfl) (fun _ => rfl) (fun _ => rfl) (fun _ => rfl)
  have c1 : (dat0 (V0 m ρ) c).arrAt 7 cfg0.N = fun i => m ((c : Thread nD τ).loc main_arg1) i := Launch0.finalCopy (V0 m ρ) c
  have l2 : (dat1 (V1 m ρ) c).arrAt 6 cfg1.N = (layer (fun i => m ((c : Thread nD τ).loc main_arg1) i) (layer (fun i => m ((c : Thread nD τ).loc main_arg1) i) (fun i => m ((c : Thread nD τ).loc main_arg0) i) (fun i => m ((c : Thread nD τ).loc main_arg2) i) (fun i => m ((c : Thread nD τ).loc main_arg3) i) (fun i => m ((c : Thread nD τ).loc main_arg4) i) (fun i => m ((c : Thread nD τ).loc main_arg5) i)) (fun i => m ((c : Thread nD τ).loc main_arg6) i) (fun i => m ((c : Thread nD τ).loc main_arg7) i) (fun i => m ((c : Thread nD τ).loc main_arg8) i) (fun i => m ((c : Thread nD τ).loc main_arg9) i)) :=
    Launch1.final_of (V1 m ρ) c _ _ _ _ _ _
      (fun i => congrFun ((W1_arr m ρ c 7).trans c1) i)
      (fun i => congrFun ((W1_arr m ρ c 6).trans l1) i)
      (fun i => congrFun (W1_of_ne m ρ c main_arg6 (by decide)) i)
      (fun i => congrFun (W1_of_ne m ρ c main_arg7 (by decide)) i)
      (fun i => congrFun (W1_of_ne m ρ c main_arg8 (by decide)) i)
      (fun i => congrFun (W1_of_ne m ρ c main_arg9 (by decide)) i)
  have l3 : (dat2 (V2 m ρ) c).arrAt 6 cfg2.N = (layer (fun i => m ((c : Thread nD τ).loc main_arg1) i) (layer (fun i => m ((c : Thread nD τ).loc main_arg1) i) (layer (fun i => m ((c : Thread nD τ).loc main_arg1) i) (fun i => m ((c : Thread nD τ).loc main_arg0) i) (fun i => m ((c : Thread nD τ).loc main_arg2) i) (fun i => m ((c : Thread nD τ).loc main_arg3) i) (fun i => m ((c : Thread nD τ).loc main_arg4) i) (fun i => m ((c : Thread nD τ).loc main_arg5) i)) (fun i => m ((c : Thread nD τ).loc main_arg6) i) (fun i => m ((c : Thread nD τ).loc main_arg7) i) (fun i => m ((c : Thread nD τ).loc main_arg8) i) (fun i => m ((c : Thread nD τ).loc main_arg9) i)) (fun i => m ((c : Thread nD τ).loc main_arg10) i) (fun i => m ((c : Thread nD τ).loc main_arg11) i) (fun i => m ((c : Thread nD τ).loc main_arg12) i) (fun i => m ((c : Thread nD τ).loc main_arg13) i)) :=
    Launch2.final_of (V2 m ρ) c _ _ _ _ _ _
      (fun i => congrFun (((W2_arr m ρ c 0).trans (((dat1 (V1 m ρ) c).arrAt_in 0 rfl _).trans (A_eq1 (V1 m ρ) c 0))).trans
        ((W1_arr m ρ c 7).trans c1)) i)
      (fun i => congrFun ((W2_arr m ρ c 6).trans l2) i)
      (fun i => congrFun ((W2_of_ne m ρ c main_arg10 (by decide)).trans (W1_of_ne m ρ c main_arg10 (by decide))) i)
      (fun i => congrFun ((W2_of_ne m ρ c main_arg11 (by decide)).trans (W1_of_ne m ρ c main_arg11 (by decide))) i)
      (fun i => congrFun ((W2_of_ne m ρ c main_arg12 (by decide)).trans (W1_of_ne m ρ c main_arg12 (by decide))) i)
      (fun i => congrFun ((W2_of_ne m ρ c main_arg13 (by decide)).trans (W1_of_ne m ρ c main_arg13 (by decide))) i)
  exact (W3_arr m ρ c 6).trans l3

/-- Every weakly fair execution of the kernel program terminates, nothing faulting, with the result array at the three
    layers of the arguments and the arguments unchanged. -/
theorem run : θ_run defs (onTc (τ := τ) (main (F := Ideal))) ⟨m, fun _ => 0, ρ⟩ (fun r => ∀ c : Dev nD,
      r.2.mem ((c.tc : Thread nD τ).loc main_v2) = layers m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (RunResult.run_result m ρ)

end Cert.KernelIdeal.KernelValue

end
-- ==== Proof.RefLayer.lean ====
/-
  The reference program is three graph-convolution layers.

  Its run ends with the result at the composed term of its 111 host operations.  Read one operation at a time at an
  index, the first 38 operations are `GraphLayer.layer` of the adjacency, the input features and the first layer's
  parameters: two contractions (over the 2048 neighbours, then over the 128 input features), the bias, the row mean and
  the mean squared deviation as sums over the 128 features divided by 128, the reciprocal square root, scale, shift and
  the clamp at zero.  The second and third layers are the same 38 operations applied to the previous layer's result.
-/
import proofs.«158423_j87634512708198_2_alg».proof.Proof.RefRead
import proofs.«158423_j87634512708198_2_alg».proof.Proof.GraphLayer

noncomputable section

open scoped BigOperators

namespace Cert.ReferenceIdeal.RefLayer

open Cert.ReferenceIdeal Cert.ReferenceIdeal.Read Idealize.ShloMosaic Idealize.ShloMosaic.ValueIdx Cert.GraphLayer

section OneLayer

variable (x0 : (⟨S16x2048x128, .f32⟩ : BufTy).Contents (Elt Ideal)) (x1 : (⟨S16x2048x2048, .f32⟩ : BufTy).Contents (Elt Ideal)) (x2 : (⟨S128x128, .f32⟩ : BufTy).Contents (Elt Ideal)) (x3 x4 x5 : (⟨S128, .f32⟩ : BufTy).Contents (Elt Ideal))

/-- The pre-normalisation value at node `n` of graph `p`, feature `j`. -/
theorem lin_at (p : Fin 16) (n : Fin 2048) (j : Fin 128) :
    val_main_v4 (F := Ideal) x0 x1 x2 x3 (ix3 p n j) = lin (fun m => x1 (ix3 p n m)) (fun m k => x0 (ix3 p m k)) (fun k j => x2 (ix2 k j)) (fun j => x3 (ix1 j)) j := by
  rw [val_main_v4_apply, val_main_v1_apply, val_main_v3_apply, val_main_v2_apply]
  unfold lin
  show (∑ k : Fin 128, val_main_v0 (F := Ideal) x0 x1 (lidx_main_v1 (ix3 p n j) k) * x2 (ridx_main_v1 (ix3 p n j) k))
      + x3 (idx_main_v2 (idx_main_v3 (ix3 p n j))) = _
  have eb : idx_main_v2 (idx_main_v3 (ix3 p n j)) = ix1 j := funext fun a => by match a with | ⟨0, _⟩ => rfl
  rw [eb]
  congr 1
  refine Finset.sum_congr rfl fun k _ => ?_
  have e1 : ridx_main_v1 (ix3 p n j) k = ix2 k j := funext fun a => by match a with | ⟨0, _⟩ => rfl | ⟨1, _⟩ => rfl
  rw [val_main_v0_apply, e1]
  congr 1
  refine Finset.sum_congr rfl fun m _ => ?_
  have e2 : lidx_main_v0 (lidx_main_v1 (ix3 p n j) k) m = ix3 p n m := funext fun a => by match a with | ⟨0, _⟩ => rfl | ⟨1, _⟩ => rfl | ⟨2, _⟩ => rfl
  have e3 : ridx_main_v0 (lidx_main_v1 (ix3 p n j) k) m = ix3 p m k := funext fun a => by match a with | ⟨0, _⟩ => rfl | ⟨1, _⟩ => rfl | ⟨2, _⟩ => rfl
  rw [e2, e3]

/-- The row mean, kept with a unit last axis. -/
theorem mean_at (p : Fin 16) (n : Fin 2048) (u : Fin 1) :
    val_main_v8 (F := Ideal) x0 x1 x2 x3 (ix3 p n u) = mean (lin (fun m => x1 (ix3 p n m)) (fun m k => x0 (ix3 p m k)) (fun k j => x2 (ix2 k j)) (fun j => x3 (ix1 j))) := by
  rw [val_main_v8_apply, val_main_v6_apply, val_main_v7_apply, val_main_v5_apply]
  unfold mean
  show Ideal.div (Ideal.ofBits .f32 0x00000000#32
        + ∑ k : Fin 128, val_main_v4 (F := Ideal) x0 x1 x2 x3 (idx_main_v5 (idx_main_v6 (ix3 p n u)) k))
      (Ideal.ofBits .f32 0x43000000#32) = _
  rw [Ideal.ofBits_zero_f32, zero_add]
  congr 1
  refine Finset.sum_congr rfl fun k _ => ?_
  have e : idx_main_v5 (idx_main_v6 (ix3 p n u)) k = ix3 p n k := funext fun a => by match a with | ⟨0, _⟩ => rfl | ⟨1, _⟩ => rfl | ⟨2, _⟩ => rfl
  rw [e, lin_at]

/-- The deviation from the row mean (the copy squared for the variance). -/
theorem dev_at (p : Fin 16) (n : Fin 2048) (j : Fin 128) :
    val_main_v10 (F := Ideal) x0 x1 x2 x3 (ix3 p n j) = lin (fun m => x1 (ix3 p n m)) (fun m k => x0 (ix3 p m k)) (fun k j => x2 (ix2 k j)) (fun j => x3 (ix1 j)) j - mean (lin (fun m => x1 (ix3 p n m)) (fun m k => x0 (ix3 p m k)) (fun k j => x2 (ix2 k j)) (fun j => x3 (ix1 j))) := by
  rw [val_main_v10_apply, val_main_v9_apply]
  have e : idx_main_v9 (ix3 p n j) = ix3 p n (0 : Fin 1) := funext fun a => by match a with | ⟨0, _⟩ => rfl | ⟨1, _⟩ => rfl | ⟨2, _⟩ => rfl
  rw [e, lin_at, mean_at]
  rfl

/-- The deviation from the row mean (the copy that is scaled). -/
theorem dev'_at (p : Fin 16) (n : Fin 2048) (j : Fin 128) :
    val_main_v17 (F := Ideal) x0 x1 x2 x3 (ix3 p n j) = lin (fun m => x1 (ix3 p n m)) (fun m k => x0 (ix3 p m k)) (fun k j => x2 (ix2 k j)) (fun j => x3 (ix1 j)) j - mean (lin (fun m => x1 (ix3 p n m)) (fun m k => x0 (ix3 p m k)) (fun k j => x2 (ix2 k j)) (fun j => x3 (ix1 j))) := by
  rw [val_main_v17_apply, val_main_v16_apply]
  have e : idx_main_v16 (ix3 p n j) = ix3 p n (0 : Fin 1) := funext fun a => by match a with | ⟨0, _⟩ => rfl | ⟨1, _⟩ => rfl | ⟨2, _⟩ => rfl
  rw [e, lin_at, mean_at]
  rfl

/-- The mean squared deviation, kept with a unit last axis. -/
theorem var_at (p : Fin 16) (n : Fin 2048) (u : Fin 1) :
    val_main_v15 (F := Ideal) x0 x1 x2 x3 (ix3 p n u)
      = mean (fun j => (lin (fun m => x1 (ix3 p n m)) (fun m k => x0 (ix3 p m k)) (fun k j => x2 (ix2 k j)) (fun j => x3 (ix1 j)) j - mean (lin (fun m => x1 (ix3 p n m)) (fun m k => x0 (ix3 p m k)) (fun k j => x2 (ix2 k j)) (fun j => x3 (ix1 j)))) * (lin (fun m => x1 (ix3 p n m)) (fun m k => x0 (ix3 p m k)) (fun k j => x2 (ix2 k j)) (fun j => x3 (ix1 j)) j - mean (lin (fun m => x1 (ix3 p n m)) (fun m k => x0 (ix3 p m k)) (fun k j => x2 (ix2 k j)) (fun j => x3 (ix1 j))))) := by
  rw [val_main_v15_apply, val_main_v13_apply, val_main_v14_apply, val_main_v12_apply]
  unfold mean
  show Ideal.div (Ideal.ofBits .f32 0x00000000#32
        + ∑ k : Fin 128, val_main_v11 (F := Ideal) x0 x1 x2 x3 (idx_main_v12 (idx_main_v13 (ix3 p n u)) k))
      (Ideal.ofBits .f32 0x43000000#32) = _
  rw [Ideal.ofBits_zero_f32, zero_add]
  congr 1
  refine Finset.sum_congr rfl fun k _ => ?_
  have e : idx_main_v12 (idx_main_v13 (ix3 p n u)) k = ix3 p n k := funext fun a => by match a with | ⟨0, _⟩ => rfl | ⟨1, _⟩ => rfl | ⟨2, _⟩ => rfl
  rw [e, val_main_v11_apply, dev_at]
  rfl

/-- The first 38 operations are one layer. -/
theorem first_layer : val_main_v29 (F := Ideal) x0 x1 x2 x3 x4 x5 = layer x1 x0 x2 x3 x4 x5 := by
  funext i
  obtain ⟨p, n, d, rfl⟩ : ∃ (p : Fin 16) (n : Fin 2048) (d : Fin 128), i = ix3 p n d := ⟨i 0, i 1, i 2, eq_ix3 i⟩
  rw [layer_ix3]
  unfold node
  rw [val_main_v29_apply, val_main_v28_apply, val_main_v25_apply, val_main_v22_apply, val_main_v21_apply,
    val_main_v20_apply, val_main_v19_apply, val_main_v24_apply, val_main_v23_apply, val_main_v27_apply, val_main_v26_apply,
    val_main_call0_v0_apply, val_main_v18_apply]
  have e21 : idx_main_v21 (ix3 p n d) = ix3 p n (0 : Fin 1) := funext fun a => by match a with | ⟨0, _⟩ => rfl | ⟨1, _⟩ => rfl | ⟨2, _⟩ => rfl
  have eg : idx_main_v23 (idx_main_v24 (ix3 p n d)) = ix1 d := funext fun a => by match a with | ⟨0, _⟩ => rfl
  have ebe : idx_main_v26 (idx_main_v27 (ix3 p n d)) = ix1 d := funext fun a => by match a with | ⟨0, _⟩ => rfl
  rw [e21, eg, ebe, dev'_at, var_at]
  rfl

end OneLayer

/-- The whole reference: three layers, each on the previous one's result, all over the same adjacency. -/
theorem three_layers (x0 : (⟨S16x2048x128, .f32⟩ : BufTy).Contents (Elt Ideal)) (x1 : (⟨S16x2048x2048, .f32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x128, .f32⟩ : BufTy).Contents (Elt Ideal)) (x11 x12 x13 : (⟨S128, .f32⟩ : BufTy).Contents (Elt Ideal)) :
    val_main_v89 (F := Ideal) x0 x1 x2 x3 x4 x5 x6 x7 x8 x9 x10 x11 x12 x13
      = layer x1 (layer x1 (layer x1 x0 x2 x3 x4 x5) x6 x7 x8 x9) x10 x11 x12 x13 := by
  have e3 : val_main_v89 (F := Ideal) x0 x1 x2 x3 x4 x5 x6 x7 x8 x9 x10 x11 x12 x13
      = val_main_v29 (F := Ideal) (val_main_v59 (F := Ideal) x0 x1 x2 x3 x4 x5 x6 x7 x8 x9) x1 x10 x11 x12 x13 := rfl
  have e2 : val_main_v59 (F := Ideal) x0 x1 x2 x3 x4 x5 x6 x7 x8 x9
      = val_main_v29 (F := Ideal) (val_main_v29 (F := Ideal) x0 x1 x2 x3 x4 x5) x1 x6 x7 x8 x9 := rfl
  rw [e3, e2, first_layer, first_layer, first_layer]

end Cert.ReferenceIdeal.RefLayer

end
-- ==== Proof.lean ====
/-
  Three graph-convolution layers: the tiled kernel program against the plain reference, on the extended reals.

  Both programs compute, three times over, `relu (LayerNorm ((A · H) · W + b) · γ + β)` with the same adjacency `A`: the
  reference as host operations on whole arrays, the kernel program as three launches over a grid of 16 graphs by 2 row
  tiles of 1024 nodes, each grid point doing the whole contraction over the 2048 neighbours for its rows.  On the
  extended reals the changes of float format are the identity, a matrix product into a zero accumulator is the plain
  sum of products, and a row sum is the plain sum, so every tile entry and every entry of the reference's result is
  the one formula `GraphLayer.node`; the tiles cover the arrays, so both programs end with `GraphLayer.layer` applied
  three times to the arguments.  Nothing in the argument needs the inputs to be finite: the two sides are the same
  sums, products, quotients and reciprocal square roots in the same order.

  The three frames are the launch theorems of the kernel program's two readings and the reference's run with its
  result dropped; the ideal pass rewrote nothing, so there is nothing to preserve.
-/
import proofs.«158423_j87634512708198_2_alg».proof.Defs
import proofs.«158423_j87634512708198_2_alg».proof.Proof.Gen.Kernel
import proofs.«158423_j87634512708198_2_alg».proof.Proof.Gen.Kernel.Skeleton
import proofs.«158423_j87634512708198_2_alg».proof.Proof.Gen.Kernel.Launch
import proofs.«158423_j87634512708198_2_alg».proof.Proof.Gen.Kernel.Points
import proofs.«158423_j87634512708198_2_alg».proof.Proof.Gen.Kernel.Frame
import proofs.«158423_j87634512708198_2_alg».proof.Proof.Gen.KernelIdeal
import proofs.«158423_j87634512708198_2_alg».proof.Proof.Gen.KernelIdeal.Skeleton
import proofs.«158423_j87634512708198_2_alg».proof.Proof.Gen.KernelIdeal.Launch
import proofs.«158423_j87634512708198_2_alg».proof.Proof.Gen.KernelIdeal.Points
import proofs.«158423_j87634512708198_2_alg».proof.Proof.Gen.KernelIdeal.Frame
import proofs.«158423_j87634512708198_2_alg».proof.Proof.Gen.ReferenceIdeal
import proofs.«158423_j87634512708198_2_alg».proof.Proof.Gen.Pre_finite_inputs
import proofs.«158423_j87634512708198_2_alg».proof.Proof.KernelValue
import proofs.«158423_j87634512708198_2_alg».proof.Proof.RefLayer
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the three layers of those arguments. -/
theorem algebraic : Cert.algebraic_KernelIdeal_ReferenceIdeal := by
  intro m ρ m' ρ' _ hagree
  refine ⟨fun c => Cert.KernelIdeal.KernelValue.layers m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v89_eq, Cert.ReferenceIdeal.RefLayer.three_layers, h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
